-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536x2 : Shape := ⟨2, ![65536, 2]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S65536x2 : S_.BroadcastsInDim S65536x2 (![] : Fin 0 → Fin S65536x2.rank)
  reducesTo_S65536x2_S_d0_1 : S65536x2.ReducesTo [0, 1] S_

variable [Facts]

def fn_part1 {F : FTy → Type} [FloatOps F] (main_arg4 : FVec F S65536x2 .f32) (main_v13 : IVec S_ 1) (main_v16 : IVec S65536x2 1) : IVec S_ 1 :=
  let main_c_5 : IVec S_ 1 := constantI S_ 1 1#1
  let main_v17 : IVec S_ 1 := (fun x v => Host.reduce IntOp.andi x v reducesTo_S65536x2_S_d0_1 h_S_) main_v16 main_c_5
  let main_v18 : IVec S_ 1 := andi main_v13 main_v17
  let main_v19 : FVec F S65536x2 .f32 := Host.absf main_arg4
  let main_cst_6 : FVec F S_ .f32 := constant S_ .f32 0x7F800000#32
  let main_v20 : FVec F S65536x2 .f32 := broadcastInDim S65536x2 ![] bcast_S_S65536x2 main_cst_6
  let main_v21 : IVec S65536x2 1 := cmpf .olt main_v19 main_v20
  let main_c_7 : IVec S_ 1 := constantI S_ 1 1#1
  let main_v22 : IVec S_ 1 := (fun x v => Host.reduce IntOp.andi x v reducesTo_S65536x2_S_d0_1 h_S_) main_v21 main_c_7
  let main_v23 : IVec S_ 1 := andi main_v18 main_v22
  main_v23

def fn {F : FTy → Type} [FloatOps F] (main_arg0 : FVec F S65536x512 .f32) (main_arg1 : FVec F S65536x512 .f32) (main_arg2 : FVec F S65536x2 .f32) (main_arg3 : FVec F S65536x2 .f32) (main_arg4 : FVec F S65536x2 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S65536x2 .f32 := Host.absf main_arg2
  let main_cst_2 : FVec F S_ .f32 := constant S_ .f32 0x7F800000#32
  let main_v10 : FVec F S65536x2 .f32 := broadcastInDim S65536x2 ![] bcast_S_S65536x2 main_cst_2
  let main_v11 : IVec S65536x2 1 := cmpf .olt main_v9 main_v10
  let main_c_3 : IVec S_ 1 := constantI S_ 1 1#1
  let main_v12 : IVec S_ 1 := (fun x v => Host.reduce IntOp.andi x v reducesTo_S65536x2_S_d0_1 h_S_) main_v11 main_c_3
  let main_v13 : IVec S_ 1 := andi main_v8 main_v12
  let main_v14 : FVec F S65536x2 .f32 := Host.absf main_arg3
  let main_cst_4 : FVec F S_ .f32 := constant S_ .f32 0x7F800000#32
  let main_v15 : FVec F S65536x2 .f32 := broadcastInDim S65536x2 ![] bcast_S_S65536x2 main_cst_4
  let main_v16 : IVec S65536x2 1 := cmpf .olt main_v14 main_v15
  fn_part1 (F := F) main_arg4 main_v13 main_v16
-- ==== Kernel.lean ====
abbrev S65536x512 : Shape := ⟨2, ![65536, 512]⟩
abbrev S65536x2 : Shape := ⟨2, ![65536, 2]⟩
abbrev S_ : Shape := ⟨0, ![]⟩
abbrev S65536 : Shape := ⟨1, ![65536]⟩
abbrev S65536x1 : Shape := ⟨2, ![65536, 1]⟩
abbrev S16x128 : Shape := ⟨2, ![16, 128]⟩
abbrev S2048x512 : Shape := ⟨2, ![2048, 512]⟩
abbrev S2048x1 : Shape := ⟨2, ![2048, 1]⟩
abbrev S8x128 : Shape := ⟨2, ![8, 128]⟩
abbrev S1x1 : Shape := ⟨2, ![1, 1]⟩
abbrev S2048 : Shape := ⟨1, ![2048]⟩
abbrev S1 : Shape := ⟨1, ![1]⟩

abbrev nBuf : Space → Nat
  | .hbm => 22
  | .vmem => 9
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S65536x2, .f32⟩
  | .hbm, ⟨3, _⟩ => ⟨S65536x2, .f32⟩
  | .hbm, ⟨4, _⟩ => ⟨S65536x2, .f32⟩
  | .hbm, ⟨5, _⟩ => ⟨S65536x2, .f32⟩
  | .hbm, ⟨6, _⟩ => ⟨S65536x2, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x2, .f32⟩
  | .hbm, ⟨15, _⟩ => ⟨S65536x2, .f32⟩
  | .hbm, ⟨16, _⟩ => ⟨S_, .f32⟩
  | .hbm, ⟨17, _⟩ => ⟨S_, .f32⟩
  | .hbm, ⟨18, _⟩ => ⟨S16x128, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x1, .f32⟩
  | .local _ .vmem, ⟨5, _⟩ => ⟨S2048x1, .f32⟩
  | .local _ .vmem, ⟨6, _⟩ => ⟨S8x128, .f32⟩
  | .local _ .vmem, ⟨7, _⟩ => ⟨S8x128, .f32⟩
  | .local _ .vmem, ⟨8, _⟩ => ⟨S1x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v34 : BitVec 1 := Scalar.cmpi .eq arg1 c15_i32
  let v35 : BitVec 32 := Scalar.extui v34
  let c0_i32_17 : BitVec 32 := 0#32
  let v36 : BitVec 1 := Scalar.cmpi .ne v35 c0_i32_17
  v36

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S65536x2_S65536_d1 : S65536x2.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  reducesTo_S65536x2_S_d0_1 : S65536x2.ReducesTo [0, 1] S_
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  reduces_S2048x1_S1 : S2048x1.Reduces [0] S1
  shapeCasts_S1_S1x1 : S1.ShapeCasts S1x1
  iota_S8x128_d0_w32 : S8x128.Iotas .tc 32 [0]
  iota_S8x128_d1_w32 : S8x128.Iotas .tc 32 [1]
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S16x128_S_d0_1 : S16x128.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S65536x512.size a
  hwx0_1 : ∀ i : grid0.Coords, EltTy.bits .f32 = 32 ∨ (Rect.block (s := S65536x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S65536x1.size a
  hwx0_2 : ∀ i : grid0.Coords, EltTy.bits .f32 = 32 ∨ (Rect.block (s := S65536x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S65536x512 : Shape := ⟨2, ![65536, 512]⟩
abbrev S65536x2 : Shape := ⟨2, ![65536, 2]⟩
abbrev S_ : Shape := ⟨0, ![]⟩
abbrev S65536 : Shape := ⟨1, ![65536]⟩

abbrev nBuf : Space → Nat
  | .hbm => 37
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S65536x2, .f32⟩
  | .hbm, ⟨3, _⟩ => ⟨S65536x2, .f32⟩
  | .hbm, ⟨4, _⟩ => ⟨S65536x2, .f32⟩
  | .hbm, ⟨5, _⟩ => ⟨S65536x512, .f32⟩
  | .hbm, ⟨6, _⟩ => ⟨S65536x512, .f32⟩
  | .hbm, ⟨7, _⟩ => ⟨S_, .f32⟩
  | .hbm, ⟨8, _⟩ => ⟨S65536, .f32⟩
  | .hbm, ⟨9, _⟩ => ⟨S_, .f32⟩
  | .hbm, ⟨10, _⟩ => ⟨S65536, .f32⟩
  | .hbm, ⟨11, _⟩ => ⟨S65536, .f32⟩
  | .hbm, ⟨12, _⟩ => ⟨S65536, .f32⟩
  | .hbm, ⟨13, _⟩ => ⟨S65536x2, .f32⟩
  | .hbm, ⟨14, _⟩ => ⟨S65536x2, .f32⟩
  | .hbm, ⟨15, _⟩ => ⟨S_, .f32⟩
  | .hbm, ⟨16, _⟩ => ⟨S65536, .f32⟩
  | .hbm, ⟨17, _⟩ => ⟨S_, .f32⟩
  | .hbm, ⟨18, _⟩ => ⟨S65536, .f32⟩
  | .hbm, ⟨19, _⟩ => ⟨S65536, .f32⟩
  | .hbm, ⟨20, _⟩ => ⟨S65536, .f32⟩
  | .hbm, ⟨21, _⟩ => ⟨S65536x512, .i1⟩
  | .hbm, ⟨22, _⟩ => ⟨S_, .i1⟩
  | .hbm, ⟨23, _⟩ => ⟨S65536, .i1⟩
  | .hbm, ⟨24, _⟩ => ⟨S_, .f32⟩
  | .hbm, ⟨25, _⟩ => ⟨S65536, .f32⟩
  | .hbm, ⟨26, _⟩ => ⟨S65536, .f32⟩
  | .hbm, ⟨27, _⟩ => ⟨S65536, .f32⟩
  | .hbm, ⟨28, _⟩ => ⟨S65536, .f32⟩
  | .hbm, ⟨29, _⟩ => ⟨S65536, .f32⟩
  | .hbm, ⟨30, _⟩ => ⟨S_, .f32⟩
  | .hbm, ⟨31, _⟩ => ⟨S_, .f32⟩
  | .hbm, ⟨32, _⟩ => ⟨S65536x2, .f32⟩
  | .hbm, ⟨33, _⟩ => ⟨S65536x2, .f32⟩
  | .hbm, ⟨34, _⟩ => ⟨S_, .f32⟩
  | .hbm, ⟨35, _⟩ => ⟨S_, .f32⟩
  | .hbm, ⟨36, _⟩ => ⟨S_, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_cst_3 : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]

class Facts₀ : Prop where
  reducesTo_S65536x512_S65536_d1 : S65536x512.ReducesTo [1] S65536
  h_S_ : 0 < S_.numel
  bcast_S_S65536 : S_.BroadcastsInDim S65536 (![] : Fin 0 → Fin S65536.rank)
  reducesTo_S65536x2_S65536_d1 : S65536x2.ReducesTo [1] S65536
  reducesTo_S65536_S_d0 : S65536.ReducesTo [0] S_
  reducesTo_S65536x2_S_d0_1 : S65536x2.ReducesTo [0, 1] S_

variable [Facts₀]

class Facts : Prop extends Facts₀ where

variable [Facts]
-- ==== Proof.Pieces.lean ====
/-
  What each control case of the kernel body leaves behind, as the body's own pure terms.

  The body keeps a [1,1] accumulator in scratch memory across the grid points of one core and writes its [8,128] output
  block at the last of them.  At a point it stores into the accumulator `k0_pay3 x0 x1 x2 acc` — the accumulator's
  previous contents `acc` plus the block's total (of the two feature blocks `x0`, `x1` and the distance column
  `x2`) — where `acc` is the zero splat `k0_pay2` it has just stored at a core's first point (case A), and what the
  point before left at the others (cases B and C).  At a core's last point (case C) it then reads the accumulator
  back and stores `k0_pay1` of it into the output block.  Each statement below reads the stores the case's run found
  (the last store of a buffer covers it) and the loads through the whole staging buffers; all hold at any float
  instance.
-/
import proofs.«140014_j15839839388182_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

/-- Every access of the body starts at the origin of its buffer. -/
theorem hz : (![0, 0] : Fin 2 → Nat) = fun _ => 0 := funext fun a => by fin_cases a <;> rfl

/-- A core's first point: the accumulator ends at the block's total added to the zero splat just stored. -/
theorem scratch_A (c : Dev nD) (i : grid0.Coords) (a2 : Memref sig .tc .vmem S2048x512 .f32) (h2 : a2.IsWhole) (a3 : Memref sig .tc .vmem S2048x512 .f32) (h3 : a3.IsWhole) (a4 : Memref sig .tc .vmem S2048x1 .f32) (h4 : a4.IsWhole) (a5 : Memref sig .tc .vmem S8x128 .f32) (h5 : a5.IsWhole) (a6 : Memref sig .tc .vmem S1x1 .f32) (h6 : a6.IsWhole) (hc0 : cond0_0 i) (hc1 : ¬cond0_1 i) (x0 : Vec F S2048x512 .f32) (x1 : Vec F S2048x512 .f32) (x2 : Vec F S2048x1 .f32) :
    sout0_A_0 c i a2 h2 a3 h3 a4 h4 a5 h5 a6 h6 hc0 hc1 x0 x1 x2 = k0_pay3 x0 x1 x2 k0_pay2 := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1x1) hz, View.readCov_unit_zero (S := S1x1) _ hz]
  simp only [View.readAt_eq_ld, h2.read_unread, h3.read_unread, h4.read_unread, h6.read_unread, View.ld_unit_zero (S := S2048x512) hz, View.ld_unit_zero (S := S2048x1) hz, View.ld_unit_zero (S := S1x1) hz]

/-- A point that is neither first nor last: the accumulator ends at the block's total added to what it held. -/
theorem scratch_B (c : Dev nD) (i : grid0.Coords) (a2 : Memref sig .tc .vmem S2048x512 .f32) (h2 : a2.IsWhole) (a3 : Memref sig .tc .vmem S2048x512 .f32) (h3 : a3.IsWhole) (a4 : Memref sig .tc .vmem S2048x1 .f32) (h4 : a4.IsWhole) (a5 : Memref sig .tc .vmem S8x128 .f32) (h5 : a5.IsWhole) (a6 : Memref sig .tc .vmem S1x1 .f32) (h6 : a6.IsWhole) (hc0 : ¬cond0_0 i) (hc1 : ¬cond0_1 i) (x0 : Vec F S2048x512 .f32) (x1 : Vec F S2048x512 .f32) (x2 : Vec F S2048x1 .f32) (xs0 : Vec F S1x1 .f32) :
    sout0_B_0 c i a2 h2 a3 h3 a4 h4 a5 h5 a6 h6 hc0 hc1 x0 x1 x2 xs0 = k0_pay3 x0 x1 x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  rw [View.canon_unit_zero hz]
  simp only [View.readAt_eq_ld, h2.read_unread, h3.read_unread, h4.read_unread, h6.read_unread, View.ld_unit_zero (S := S2048x512) hz, View.ld_unit_zero (S := S2048x1) hz, View.ld_unit_zero (S := S1x1) hz]

/-- A core's last point: the accumulator likewise, -/
theorem scratch_C (c : Dev nD) (i : grid0.Coords) (a2 : Memref sig .tc .vmem S2048x512 .f32) (h2 : a2.IsWhole) (a3 : Memref sig .tc .vmem S2048x512 .f32) (h3 : a3.IsWhole) (a4 : Memref sig .tc .vmem S2048x1 .f32) (h4 : a4.IsWhole) (a5 : Memref sig .tc .vmem S8x128 .f32) (h5 : a5.IsWhole) (a6 : Memref sig .tc .vmem S1x1 .f32) (h6 : a6.IsWhole) (hc0 : ¬cond0_0 i) (hc1 : cond0_1 i) (x0 : Vec F S2048x512 .f32) (x1 : Vec F S2048x512 .f32) (x2 : Vec F S2048x1 .f32) (xs0 : Vec F S1x1 .f32) :
    sout0_C_0 c i a2 h2 a3 h3 a4 h4 a5 h5 a6 h6 hc0 hc1 x0 x1 x2 xs0 = k0_pay3 x0 x1 x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz]
  simp only [View.readAt_eq_ld, h2.read_unread, h3.read_unread, h4.read_unread, h6.read_unread, View.ld_unit_zero (S := S2048x512) hz, View.ld_unit_zero (S := S2048x1) hz, View.ld_unit_zero (S := S1x1) hz]

/-- and the output block is `k0_pay1` of the accumulator's new contents, read back. -/
theorem out_C (c : Dev nD) (i : grid0.Coords) (a2 : Memref sig .tc .vmem S2048x512 .f32) (h2 : a2.IsWhole) (a3 : Memref sig .tc .vmem S2048x512 .f32) (h3 : a3.IsWhole) (a4 : Memref sig .tc .vmem S2048x1 .f32) (h4 : a4.IsWhole) (a5 : Memref sig .tc .vmem S8x128 .f32) (h5 : a5.IsWhole) (a6 : Memref sig .tc .vmem S1x1 .f32) (h6 : a6.IsWhole) (hc0 : ¬cond0_0 i) (hc1 : cond0_1 i) (x0 : Vec F S2048x512 .f32) (x1 : Vec F S2048x512 .f32) (x2 : Vec F S2048x1 .f32) (xs0 : Vec F S1x1 .f32) :
    out0_C_3 c i a2 h2 a3 h3 a4 h4 a5 h5 a6 h6 hc0 hc1 x0 x1 x2 xs0 = k0_pay1 (k0_pay3 x0 x1 x2 xs0) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz]
  rw [View.readCov_unit_zero (S := S1x1) _ hz]
  simp only [View.readAt_eq_ld, h2.read_unread, h3.read_unread, h4.read_unread, h6.read_unread, View.ld_unit_zero (S := S2048x512) hz, View.ld_unit_zero (S := S2048x1) hz, View.ld_unit_zero (S := S1x1) hz]

end Cert.KernelIdeal.Pieces

end
-- ==== Proof.RowLoss.lean ====
/-
  One row's loss on the extended reals, and two readings of "these two rows agree in every lane".

  For rows `a b : Fin n → EReal` and a second distance `dy`:
    squares   `sq a b = ∑ k, (a k - b k) * (a k - b k)`,
    distance  `dist s = √(s + ε)`,
    weight    `1` when `a k = b k` for every lane `k`, the distance otherwise,
    loss      `(dist - dy) * (dist - dy) / weight`.
  A program decides the weight's condition either by the minimum over the lanes of an indicator (1 where the two
  lanes agree, 0 where not, started from +∞) compared with 0, or by the conjunction over the lanes of the
  comparison bits, started from 1.  Both say `∀ k, a k = b k`: a minimum of numbers that are 0 or 1, started from
  +∞, is positive exactly when none of them is 0; a conjunction of bits started from 1 is 1 exactly when each is.
-/
import Idealize.ShloMosaic.PureOps.Ideal
import Idealize.ShloMosaic.PureOps.Ideal.Laws
import Idealize.ShloMosaic.PureOps.Reduce

noncomputable section

namespace Cert.RowLoss

open Idealize.ShloMosaic
open scoped BigOperators

/-- The float words the two programs spell: ε, 1, 0 and +∞. -/
abbrev eps : EReal := Ideal.ofBits .f32 0x358637BD#32
abbrev one : EReal := Ideal.ofBits .f32 0x3F800000#32
abbrev zero : EReal := Ideal.ofBits .f32 0x00000000#32
abbrev top : EReal := Ideal.ofBits .f32 0x7F800000#32

theorem zero_eq : zero = 0 := Ideal.ofBits_zero_f32
theorem one_eq : one = 1 := by simp [Ideal.ofBits, Ideal.ieee, -EReal.coe_mul]; norm_num
theorem top_eq : top = ⊤ := by simp [Ideal.ofBits, Ideal.ieee]

variable {n : ℕ}

/-- The squared distance of two rows. -/
def sq (a b : Fin n → EReal) : EReal := ∑ k, (a k - b k) * (a k - b k)

/-- The distance from a squared distance. -/
def dist (s : EReal) : EReal := Ideal.sqrt (s + eps)

open Classical in
/-- The weight: 1 for two equal rows, the distance `d` otherwise. -/
def weight (a b : Fin n → EReal) (d : EReal) : EReal := if ∀ k, a k = b k then one else d

/-- The loss of the row pair `a`, `b` against the second distance `dy`. -/
def loss (a b : Fin n → EReal) (dy : EReal) : EReal :=
  Ideal.div ((dist (sq a b) - dy) * (dist (sq a b) - dy)) (weight a b (dist (sq a b)))

theorem weight_of_all (a b : Fin n → EReal) (d : EReal) (h : ∀ k, a k = b k) : weight a b d = one := by
  unfold weight; exact if_pos h

theorem weight_of_not_all (a b : Fin n → EReal) (d : EReal) (h : ¬∀ k, a k = b k) : weight a b d = d := by
  unfold weight; exact if_neg h

/-! ## The comparison bit and the indicator -/

/-- The bit of a decided proposition is 1 exactly when the proposition holds. -/
theorem ofBool_decide_eq_one (p : Prop) [Decidable p] : BitVec.ofBool (decide p) = 1#1 ↔ p := by
  by_cases h : p
  · simp [h]
  · simp [h]

/-- The comparison bit "equal" of two numbers is 1 exactly when they are equal, -/
theorem cmp_oeq_eq_one (x y : EReal) : Ideal.cmp .oeq x y = 1#1 ↔ x = y := ofBool_decide_eq_one _

/-- and the comparison bit "greater" exactly when the first is above the second. -/
theorem cmp_ogt_eq_one (x y : EReal) : Ideal.cmp .ogt x y = 1#1 ↔ y < x := ofBool_decide_eq_one _

/-- A selection by a bit that is 1 takes the first value, -/
theorem select_of_eq_one {α : Type} (c : BitVec 1) (x y : α) (h : c = 1#1) : Scalar.select c x y = x := by
  unfold Scalar.select; exact if_pos h

/-- and by a bit that is not 1 the second. -/
theorem select_of_ne_one {α : Type} (c : BitVec 1) (x y : α) (h : ¬c = 1#1) : Scalar.select c x y = y := by
  unfold Scalar.select; exact if_neg h

/-- The indicator of lane `k`: 1 where the rows agree, 0 where they do not. -/
def ind (a b : Fin n → EReal) (k : Fin n) : EReal := Scalar.select (Ideal.cmp .oeq (a k) (b k)) one zero

theorem ind_pos_iff (a b : Fin n → EReal) (k : Fin n) : zero < ind a b k ↔ a k = b k := by
  unfold ind
  by_cases h : a k = b k
  · rw [select_of_eq_one _ _ _ ((cmp_oeq_eq_one _ _).2 h), zero_eq, one_eq]; exact ⟨fun _ => h, fun _ => zero_lt_one⟩
  · rw [select_of_ne_one _ _ _ (fun e => h ((cmp_oeq_eq_one _ _).1 e))]
    exact ⟨fun e => absurd e (lt_irrefl _), fun e => absurd e h⟩

/-- The minimum over the lanes of the indicator, started from +∞, is above 0 exactly when the rows agree in every lane. -/
theorem minFlag (a b : Fin n → EReal) :
    Ideal.cmp .ogt ((Finset.univ : Finset (Fin n)).fold min top (ind a b)) zero = 1#1 ↔ ∀ k, a k = b k := by
  rw [cmp_ogt_eq_one, Finset.lt_fold_min]
  constructor
  · exact fun h k => (ind_pos_iff a b k).1 (h.2 k (Finset.mem_univ k))
  · refine fun h => ⟨?_, fun k _ => (ind_pos_iff a b k).2 (h k)⟩
    rw [zero_eq, top_eq]; exact EReal.zero_lt_top

/-- A conjunction of bits started from 1 is 1 exactly when every bit is. -/
theorem fold_andi_eq_one {ι : Type} [DecidableEq ι] (s : Finset ι) (g : ι → BitVec 1) :
    s.fold IntOp.andi 1#1 g = 1#1 ↔ ∀ k ∈ s, g k = 1#1 := by
  induction s using Finset.induction_on with
  | empty => simp
  | insert x s hx ih =>
    rw [Finset.fold_insert hx, Finset.forall_mem_insert, ← ih]
    generalize s.fold IntOp.andi 1#1 g = r
    generalize g x = c
    revert c r; decide

/-- The conjunction over the lanes of the comparison bits, started from 1, is 1 exactly when the rows agree in every lane. -/
theorem andFlag (a b : Fin n → EReal) :
    (Finset.univ : Finset (Fin n)).fold IntOp.andi 1#1 (fun k => Ideal.cmp .oeq (a k) (b k)) = 1#1 ↔ ∀ k, a k = b k := by
  rw [fold_andi_eq_one]
  exact ⟨fun h k => (cmp_oeq_eq_one _ _).1 (h k (Finset.mem_univ k)), fun h k _ => (cmp_oeq_eq_one _ _).2 (h k)⟩

/-- The weight as the first program selects it: by the minimum of the indicators. -/
theorem select_minFlag (a b : Fin n → EReal) (d : EReal) :
    Scalar.select (Ideal.cmp .ogt ((Finset.univ : Finset (Fin n)).fold min top (ind a b)) zero) one d = weight a b d := by
  by_cases h : ∀ k, a k = b k
  · rw [select_of_eq_one _ _ _ ((minFlag a b).2 h), weight_of_all a b d h]
  · rw [select_of_ne_one _ _ _ (fun e => h ((minFlag a b).1 e)), weight_of_not_all a b d h]

/-- The weight as the second program selects it: by the conjunction of the comparison bits. -/
theorem select_andFlag (a b : Fin n → EReal) (d : EReal) :
    Scalar.select ((Finset.univ : Finset (Fin n)).fold IntOp.andi 1#1 (fun k => Ideal.cmp .oeq (a k) (b k))) one d
      = weight a b d := by
  by_cases h : ∀ k, a k = b k
  · rw [select_of_eq_one _ _ _ ((andFlag a b).2 h), weight_of_all a b d h]
  · rw [select_of_ne_one _ _ _ (fun e => h ((andFlag a b).1 e)), weight_of_not_all a b d h]

end Cert.RowLoss

end
-- ==== Proof.LibColumns.lean ====
/-
  Two layout operations read at an index, for the column forms that a row reduction kept as a column
  (`keepdims`) produces: a vector of `a` entries cast to an `[a, 1]` column, and an `[a, 1]` column broadcast along
  `b` lanes.  Both read the operand at the row's own entry.
-/
import Idealize.ShloMosaic.Lib.Pipeline.Value
import Idealize.ShloMosaic.Lib.ValueIdx

namespace Cert.Columns

open Idealize.ShloMosaic Idealize.ShloMosaic.ValueIdx

variable {α : Type}

/-- An `[a]` array cast to an `[a, 1]` column reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.LibRowBlocks.lean ====
/-
  Rows of a matrix added up block by block, with every position a natural number.

  A kernel that walks a matrix in column blocks keeps, per row, a running total of what it has seen so far. To say
  "after block `j` the total is the sum over the first `b * (j + 1)` columns" without carrying bounds proofs
  through the induction, an array is read at natural-number coordinates (`atNat`: the entry when both coordinates are
  in range, zero otherwise) and partial sums run over `Finset.range`. Only addition's commutative-monoid laws are used,
  so everything holds on the extended reals with no finiteness assumption.

  * `atNat`, `atNat_of_lt`: the total read, and that it is the entry in range;
  * `sum_range_block`: the first `b * (j + 1)` terms are the first `b * j` terms plus block `j`'s `b` terms;
  * `sum_range_fin`: a sum of total reads over `range n` is the sum of the entries over `Fin n`;
  * `laneSum_column_apply`: a sum along the lanes kept as a column, at a row, is the sum of the row's entries;
  * `sum_idx_column`, `sum_idx_rows`: a sum over every index of an `[a, 1]` or `[a, b]` array, row by row.
-/
import Idealize.ShloMosaic.Lib.ValueIdx
import Idealize.ShloMosaic.Lib.Pipeline.Value
import Idealize.ShloMosaic.PureOps.Ideal.Laws
import proofs.«140014_j15839839388182_2_alg».proof.Proof.LibColumns

noncomputable section

namespace Cert.RowBlocks

open Idealize.ShloMosaic Idealize.ShloMosaic.ValueIdx
open scoped BigOperators

/-- An `[n0, n1]` array read at natural-number coordinates: the entry when both are in range, zero otherwise. -/
def atNat {n0 n1 : ℕ} (X : (⟨2, ![n0, n1]⟩ : Shape).Idx → EReal) (r c : ℕ) : EReal :=
  if h : r < n0 ∧ c < n1 then X (ix2 ⟨r, h.1⟩ ⟨c, h.2⟩) else 0

theorem atNat_of_lt {n0 n1 : ℕ} (X : (⟨2, ![n0, n1]⟩ : Shape).Idx → EReal) {r c : ℕ} (hr : r < n0) (hc : c < n1) :
    atNat X r c = X (ix2 ⟨r, hr⟩ ⟨c, hc⟩) := dif_pos ⟨hr, hc⟩

theorem atNat_fin {n0 n1 : ℕ} (X : (⟨2, ![n0, n1]⟩ : Shape).Idx → EReal) (r : Fin n0) (c : Fin n1) :
    atNat X r.val c.val = X (ix2 r c) := atNat_of_lt X r.isLt c.isLt

/-- The first `b * (j + 1)` terms of a sequence are its first `b * j` terms and then the `b` terms of block `j`. -/
theorem sum_range_block {M : Type*} [AddCommMonoid M] (f : ℕ → M) (b j : ℕ) :
    ∑ c ∈ Finset.range (b * (j + 1)), f c = ∑ c ∈ Finset.range (b * j), f c + ∑ q : Fin b, f (b * j + q.val) := by
  rw [Nat.mul_succ, Finset.sum_range_add, Finset.sum_range fun x => f (b * j + x)]

/-- A sum over `range n` of a function that is `g` on the positions below `n` is the sum of `g` over `Fin n`. -/
theorem sum_range_fin {M : Type*} [AddCommMonoid M] (n : ℕ) (f : ℕ → M) (g : Fin n → M) (h : ∀ k : Fin n, f k.val = g k) :
    ∑ c ∈ Finset.range n, f c = ∑ k : Fin n, g k := by
  rw [Finset.sum_range]; exact Finset.sum_congr rfl fun k _ => h k

/-- A sum along the lanes, kept as a column: at row `p` it is the sum of the row's entries. -/
theorem laneSum_column_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src acc h hφ hacc) hc (ix2 p u) = ∑ k : Fin b, src (ix2 p k) :=
  (Cert.Columns.shapeCast_a_a1_apply _ hc p u).trans
    ((Ideal.multiReduction_add_single src acc h hφ hacc (ix1 p)).trans
      (Finset.sum_congr rfl fun k _ => congrArg src (funext fun d => Fin.ext (by
        match d with
        | ⟨0, _⟩ => rfl
        | ⟨1, _⟩ => rfl))))

/-- A sum over every index of an `[a, 1]` column is the sum of its `a` entries. -/
theorem sum_idx_column {M : Type*} [AddCommMonoid M] {a : ℕ} (f : (⟨2, ![a, 1]⟩ : Shape).Idx → M) :
    ∑ j : (⟨2, ![a, 1]⟩ : Shape).Idx, f j = ∑ r : Fin a, f (ix2 r (0 : Fin 1)) := by
  rw [sum_idx2]
  exact Finset.sum_congr rfl fun r _ => Fin.sum_univ_one _

/-- A sum over every index of an `[a, b]` array is the sum over the rows of the sums along each row. -/
theorem sum_idx_rows {M : Type*} [AddCommMonoid M] {a b : ℕ} (f : (⟨2, ![a, b]⟩ : Shape).Idx → M) :
    ∑ j : (⟨2, ![a, b]⟩ : Shape).Idx, f j = ∑ r : Fin a, ∑ k : Fin b, f (ix2 r k) := sum_idx2 f

end Cert.RowBlocks

end
-- ==== Proof.LibColumnFolds.lean ====
/-
  Two reductions read at an index, for arrays of any extents, on the extended reals.

  * `laneMin_apply`: the minimum along the lanes of an `[a, b]` array, at row `p`, is the minimum of the row's `b`
    entries and the reduction's starting value (a fold of `min`, in any order).
  * `columnTotal_apply`: the sum down an `[a, 1]` column, kept as a `[1, 1]` array, is at its one index the sum of the
    column's `a` entries.
  * `idx11`: a `[1, 1]` array has one index.
-/
import Idealize.ShloMosaic.Lib.ValueIdx
import Idealize.ShloMosaic.Lib.Pipeline.Value
import Idealize.ShloMosaic.PureOps.Ideal.Laws
import proofs.«140014_j15839839388182_2_alg».proof.Proof.LibColumns

noncomputable section

namespace Cert.ColumnFolds

open Idealize.ShloMosaic Idealize.ShloMosaic.ValueIdx
open scoped BigOperators

/-- Every index of a `[1, 1]` array is `(0, 0)`. -/
theorem idx11 (y : (⟨2, ![1, 1]⟩ : Shape).Idx) : y = ix2 (0 : Fin 1) (0 : Fin 1) := by
  funext d
  match d with
  | ⟨0, _⟩ => exact Fin.ext (by have := idx2_lt0 y; show (y 0).val = 0; omega)
  | ⟨1, _⟩ => exact Fin.ext (by have := idx2_lt1 y; show (y 1).val = 0; omega)

/-- The minimum along the lanes, at row `p`: the fold of `min` from the starting value over the row's entries. -/
theorem laneMin_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.minimumf.neutral .f32 hφ)
    (p : Fin a) :
    multiReduction .minimumf [1] ⟨1, ![a]⟩ src acc h hφ hacc (ix1 p)
      = (Finset.univ : Finset (Fin b)).fold min (Ideal.ofBits .f32 acc) (fun k => src (ix2 p k)) := by
  rw [multiReduction_minimumf_eq_fold]
  refine (h.fold_filter_drop_single _ _ src (ix1 p)).trans ?_
  exact congrArg (fun f : Fin b → EReal => (Finset.univ : Finset (Fin b)).fold min (Ideal.ofBits .f32 acc) f)
    (funext fun k => congrArg src (funext fun d => Fin.ext (by
      match d with
      | ⟨0, _⟩ => rfl
      | ⟨1, _⟩ => rfl)))

/-- The sum down a column, kept as a `[1, 1]` array: at its index, the sum of the column's entries. -/
theorem columnTotal_apply {a : ℕ} (src : FVec Ideal ⟨2, ![a, 1]⟩ .f32) (acc : BitVec 32)
    (h : (⟨2, ![a, 1]⟩ : Shape).Reduces [0] ⟨1, ![1]⟩) (hφ : FKind.Formats .f32) (hacc : acc = FKind.add.neutral .f32 hφ)
    (hc : (⟨1, ![1]⟩ : Shape).ShapeCasts ⟨2, ![1, 1]⟩) (u v : Fin 1) :
    shapeCast ⟨2, ![1, 1]⟩ (multiReduction .add [0] ⟨1, ![1]⟩ src acc h hφ hacc) hc (ix2 u v)
      = ∑ q : Fin a, src (ix2 q (0 : Fin 1)) :=
  (Cert.Columns.shapeCast_a_a1_apply _ hc u v).trans
    ((Ideal.multiReduction_add_single src acc h hφ hacc (ix1 u)).trans
      (Finset.sum_congr rfl fun k _ => congrArg src (funext fun d => Fin.ext (by
        match d with
        | ⟨0, _⟩ => rfl
        | ⟨1, _⟩ =>
          have hu : u.val = 0 := by omega
          show (h.lift (ix1 u) k ⟨1, _⟩).val = 0
          rw [Shape.Reduces.lift_val]
          simp [Shape.Reduces.liftVal, hu]))))

end Cert.ColumnFolds

end
-- ==== Proof.Payloads.lean ====
/-
  The kernel body's pure terms read at an index, on the extended reals.

  For the two [2048, 512] feature blocks `x0`, `x1`, the [2048, 1] column `x2` of second distances and the [1, 1]
  accumulator `acc` of one grid point:

    * the distance column holds, at row `q`, `dist (sq row_q(x0) row_q(x1))`;
    * the flag column holds the bit "the minimum over the lanes of the indicator of `x0 = x1`, from +∞, is above 0";
    * the loss column holds the row's loss against `x2`'s entry, the weight selected by the flag (`select_minFlag`);
    * `k0_pay3 x0 x1 x2 acc`, at its one index, is `acc + Σ_q loss_q`; `k0_pay2` is 0 there;
    * `k0_pay1 w`, an [8, 128] block, holds `w`'s entry at row 0, lane 0 and 0 elsewhere.
-/
import proofs.«140014_j15839839388182_2_alg».proof.Proof.Gen.KernelIdeal.Skeleton
import proofs.«140014_j15839839388182_2_alg».proof.Proof.RowLoss
import proofs.«140014_j15839839388182_2_alg».proof.Proof.LibRowBlocks
import proofs.«140014_j15839839388182_2_alg».proof.Proof.LibColumnFolds
import Idealize.ShloMosaic.Lib.Affine

noncomputable section

namespace Cert.KernelIdeal.Payloads

open Cert.KernelIdeal Cert.KernelIdeal.Gen Idealize.ShloMosaic Idealize.ShloMosaic.ValueIdx Cert.RowLoss
open scoped BigOperators

/-- Row `q` of a feature block, as a function of the lane. -/
abbrev rowOf (x : Vec Ideal S2048x512 .f32) (q : Fin 2048) : Fin 512 → EReal := fun k => x (ix2 q k)

/-! ## The three columns, as the body spells them (at any float instance) -/

section Columns
variable {F : FTy → Type} [FloatOps F]

/-- The distances of the block's rows, as a column. -/
def dxCol (x0 x1 : Vec F S2048x512 .f32) : FVec F S2048x1 .f32 :=
  sqrt (addf
    (shapeCast S2048x1 (multiReduction .add [1] S2048 (mulf (subf x0 x1) (subf x0 x1)) 0x00000000#32 reduces_S2048x512_S2048 (.inl rfl) rfl)
      shapeCasts_S2048_S2048x1)
    (broadcast S2048x1 (Scalar.ofBits .f32 0x358637BD#32 : F .f32)))

/-- The indicator of "the two blocks agree here": 1 where they do, 0 where not. -/
def indBlk (x0 x1 : Vec F S2048x512 .f32) : FVec F S2048x512 .f32 :=
  select (cmpf .oeq x0 x1) (broadcast S2048x512 (Scalar.ofBits .f32 0x3F800000#32 : F .f32))
    (broadcast S2048x512 (Scalar.ofBits .f32 0x00000000#32 : F .f32))

/-- Its minimum along the lanes, from +∞, one per row. -/
def minRow (x0 x1 : Vec F S2048x512 .f32) : FVec F S2048 .f32 :=
  multiReduction .minimumf [1] S2048 (indBlk x0 x1) 0x7F800000#32 reduces_S2048x512_S2048 (.inl rfl) rfl

/-- The bit "the rows agree in every lane", as the body computes it (that minimum above 0), as a column. -/
def flagCol (x0 x1 : Vec F S2048x512 .f32) : IVec S2048x1 1 :=
  shapeCast S2048x1 (cmpf .ogt (minRow x0 x1) (broadcast S2048 (Scalar.ofBits .f32 0x00000000#32 : F .f32))) shapeCasts_S2048_S2048x1

/-- The rows' losses, as a column. -/
def lossCol (x0 x1 : Vec F S2048x512 .f32) (x2 : Vec F S2048x1 .f32) : FVec F S2048x1 .f32 :=
  divf
    (mulf (subf (dxCol x0 x1) (shapeCast S2048x1 x2 shapeCasts_S2048x1_S2048x1))
      (subf (dxCol x0 x1) (shapeCast S2048x1 x2 shapeCasts_S2048x1_S2048x1)))
    (select (flagCol x0 x1) (broadcast S2048x1 (Scalar.ofBits .f32 0x3F800000#32 : F .f32)) (dxCol x0 x1))

/-- The column's total, kept as a [1, 1] array. -/
def lossTotal (x0 x1 : Vec F S2048x512 .f32) (x2 : Vec F S2048x1 .f32) : FVec F S1x1 .f32 :=
  shapeCast S1x1 (multiReduction .add [0] S1 (lossCol x0 x1 x2) 0x00000000#32 reduces_S2048x1_S1 (.inl rfl) rfl) shapeCasts_S1_S1x1

set_option maxRecDepth 65536 in
/-- The printed accumulator payload is the previous contents plus the loss column's total. -/
theorem pay3_eq (x0 x1 : Vec F S2048x512 .f32) (x2 : Vec F S2048x1 .f32) (acc : Vec F S1x1 .f32) :
    k0_pay3 x0 x1 x2 acc = shapeCast S1x1 (addf acc (lossTotal x0 x1 x2)) shapeCasts_S1x1_S1x1 := rfl

end Columns

/-! ## The columns at a row, on the extended reals -/

theorem dxCol_apply (x0 x1 : Vec Ideal S2048x512 .f32) (q : Fin 2048) (u : Fin 1) :
    dxCol (F := Ideal) x0 x1 (ix2 q u) = dist (sq (rowOf x0 q) (rowOf x1 q)) :=
  (congrArg (fun z : EReal => Ideal.sqrt (z + eps))
    (Cert.RowBlocks.laneSum_column_apply (mulf (F := Ideal) (subf x0 x1) (subf x0 x1)) 0x00000000#32 reduces_S2048x512_S2048 (.inl rfl) rfl
      shapeCasts_S2048_S2048x1 q u)).trans rfl

theorem indBlk_apply (x0 x1 : Vec Ideal S2048x512 .f32) (q : Fin 2048) (k : Fin 512) :
    indBlk (F := Ideal) x0 x1 (ix2 q k) = ind (rowOf x0 q) (rowOf x1 q) k := rfl

theorem minRow_apply (x0 x1 : Vec Ideal S2048x512 .f32) (q : Fin 2048) :
    minRow (F := Ideal) x0 x1 (ix1 q) = (Finset.univ : Finset (Fin 512)).fold min top (ind (rowOf x0 q) (rowOf x1 q)) :=
  (Cert.ColumnFolds.laneMin_apply (indBlk (F := Ideal) x0 x1) 0x7F800000#32 reduces_S2048x512_S2048 (.inl rfl) rfl q).trans
    (congrArg (fun f : Fin 512 → EReal => (Finset.univ : Finset (Fin 512)).fold min top f)
      (funext fun k => indBlk_apply x0 x1 q k))

theorem flagCol_apply (x0 x1 : Vec Ideal S2048x512 .f32) (q : Fin 2048) (u : Fin 1) :
    flagCol (F := Ideal) x0 x1 (ix2 q u)
      = Ideal.cmp .ogt ((Finset.univ : Finset (Fin 512)).fold min top (ind (rowOf x0 q) (rowOf x1 q))) zero := by
  unfold flagCol
  rw [Cert.Columns.shapeCast_a_a1_apply]
  rw [cmpf_apply, broadcast_apply, Ideal.cmpf_def, minRow_apply]
  rfl

theorem lossCol_apply (x0 x1 : Vec Ideal S2048x512 .f32) (x2 : Vec Ideal S2048x1 .f32) (q : Fin 2048) (u : Fin 1) :
    lossCol (F := Ideal) x0 x1 x2 (ix2 q u) = loss (rowOf x0 q) (rowOf x1 q) (x2 (ix2 q u)) := by
  unfold lossCol
  rw [divf_apply, mulf_apply, subf_apply, select_apply, broadcast_apply, shapeCast_self]
  rw [dxCol_apply, flagCol_apply, Ideal.ofBits_def, select_minFlag]
  rfl

/-! ## The accumulator's payloads -/

/-- The block's total: the sum of its rows' losses. -/
def blockTotal (x0 x1 : Vec Ideal S2048x512 .f32) (x2 : Vec Ideal S2048x1 .f32) : EReal :=
  ∑ q : Fin 2048, loss (rowOf x0 q) (rowOf x1 q) (x2 (ix2 q (0 : Fin 1)))

theorem lossTotal_apply (x0 x1 : Vec Ideal S2048x512 .f32) (x2 : Vec Ideal S2048x1 .f32) (u v : Fin 1) :
    lossTotal (F := Ideal) x0 x1 x2 (ix2 u v) = blockTotal x0 x1 x2 :=
  (Cert.ColumnFolds.columnTotal_apply (lossCol (F := Ideal) x0 x1 x2) 0x00000000#32 reduces_S2048x1_S1 (.inl rfl) rfl shapeCasts_S1_S1x1 u v).trans
    (Finset.sum_congr rfl fun q _ => lossCol_apply x0 x1 x2 q 0)

theorem pay3_apply (x0 x1 : Vec Ideal S2048x512 .f32) (x2 : Vec Ideal S2048x1 .f32) (acc : Vec Ideal S1x1 .f32) (u v : Fin 1) :
    k0_pay3 (F := Ideal) x0 x1 x2 acc (ix2 u v) = acc (ix2 u v) + blockTotal x0 x1 x2 := by
  rw [pay3_eq, shapeCast_self]
  exact congrArg (acc (ix2 u v) + ·) (lossTotal_apply x0 x1 x2 u v)

/-- The zero splat stored at a core's first point. -/
theorem pay2_apply (y : S1x1.Idx) : k0_pay2 (F := Ideal) y = 0 := by
  unfold k0_pay2
  rw [shapeCast_self]
  exact Ideal.ofBits_zero_f32

/-! ## The output block's payload -/

/-- A 32-bit word made from a number below 2³² is the zero word exactly when the number is 0. -/
theorem ofNat32_eq_zero_iff (n : ℕ) (hn : n < 4294967296) : BitVec.ofNat 32 n = 0#32 ↔ n = 0 := by
  constructor
  · intro h
    have := congrArg BitVec.toNat h
    simp only [BitVec.toNat_ofNat] at this
    omega
  · rintro rfl; rfl

/-- The output block holds the accumulator's entry at row 0, lane 0, and 0 elsewhere. -/
theorem pay1_apply (w : Vec Ideal S1x1 .f32) (r : Fin 8) (l : Fin 128) :
    k0_pay1 (F := Ideal) w (ix2 r l) = if r.val = 0 ∧ l.val = 0 then w (ix2 (0 : Fin 1) (0 : Fin 1)) else 0 := by
  have hb : broadcastTo S8x128 (shapeCast S1x1 w shapeCasts_S1x1_S1x1) broadcasts_S1x1_S8x128 (ix2 r l)
      = w (ix2 (0 : Fin 1) (0 : Fin 1)) := by
    rw [shapeCast_self]
    exact broadcastTo_apply w broadcasts_S1x1_S8x128 (ix2 r l) (ix2 (0 : Fin 1) (0 : Fin 1)) fun ax => by
      match ax with
      | ⟨0, _⟩ => rfl
      | ⟨1, _⟩ => rfl
  show Scalar.select
      (IntOp.andi (IntOp.cmpi .eq (BitVec.ofNat 32 (0 * 8 + r.val)) 0#32) (IntOp.cmpi .eq (BitVec.ofNat 32 (0 * 128 + l.val)) 0#32))
      (broadcastTo S8x128 (shapeCast S1x1 w shapeCasts_S1x1_S1x1) broadcasts_S1x1_S8x128 (ix2 r l))
      (Ideal.ofBits .f32 0x00000000#32) = _
  rw [hb, Ideal.ofBits_zero_f32]
  have hr := r.isLt
  have hl := l.isLt
  by_cases h : r.val = 0 ∧ l.val = 0
  · rw [if_pos h]
    refine select_of_eq_one _ _ _ (IntOp.andi_eq_one.2 ⟨IntOp.cmpi_eq.2 ?_, IntOp.cmpi_eq.2 ?_⟩)
    · exact (ofNat32_eq_zero_iff _ (by omega)).2 (by omega)
    · exact (ofNat32_eq_zero_iff _ (by omega)).2 (by omega)
  · rw [if_neg h]
    refine select_of_ne_one _ _ _ fun e => h ?_
    obtain ⟨e0, e1⟩ := IntOp.andi_eq_one.1 e
    have := (ofNat32_eq_zero_iff _ (by omega)).1 (IntOp.cmpi_eq.1 e0)
    have := (ofNat32_eq_zero_iff _ (by omega)).1 (IntOp.cmpi_eq.1 e1)
    omega

end Cert.KernelIdeal.Payloads

end
-- ==== Proof.GridSum.lean ====
/-
  A long sum taken in blocks, the blocks taken in groups of sixteen, each group kept as a running total.

  A sequence `f : ℕ → M` in a commutative monoid is cut into blocks of `b` terms: `blockSum b f j` is the sum of
  block `j`.  Blocks are visited in order; the running total `running B n` after block `n` restarts at every block
  whose number is a multiple of 16 and otherwise adds block `n` to the total after block `n - 1`.  So the totals
  after blocks 15 and 31 are the sums of blocks 0–15 and 16–31, and together the first `32 · b` terms of `f`.
  Only commutativity and associativity of `+` are used: on the extended reals nothing has to be finite.
-/
import Mathlib.Algebra.BigOperators.Intervals
import proofs.«140014_j15839839388182_2_alg».proof.Proof.LibRowBlocks

noncomputable section

namespace Cert.GridSum

open scoped BigOperators

variable {M : Type*} [AddCommMonoid M]

/-- The sum of block `j`: the `b` terms from position `b * j`. -/
def blockSum (b : ℕ) (f : ℕ → M) (j : ℕ) : M := ∑ q : Fin b, f (b * j + q.val)

/-- The running total after block `n`: the blocks from the last multiple of 16 up to `n`. -/
def running (B : ℕ → M) (n : ℕ) : M := ∑ j ∈ Finset.Ico (16 * (n / 16)) (n + 1), B j

/-- At a multiple of 16 the total restarts: it is that block alone. -/
theorem running_first (B : ℕ → M) (n : ℕ) (h : n % 16 = 0) : running B n = B n := by
  unfold running
  rw [show 16 * (n / 16) = n by omega, Nat.Ico_succ_singleton, Finset.sum_singleton]

/-- Elsewhere it is the total after the block before, plus this block. -/
theorem running_next (B : ℕ → M) (n : ℕ) (h : ¬n % 16 = 0) : running B n = running B (n - 1) + B n := by
  unfold running
  rw [show 16 * ((n - 1) / 16) = 16 * (n / 16) by omega, show n - 1 + 1 = n by omega,
    Finset.sum_Ico_succ_top (show 16 * (n / 16) ≤ n by omega)]

/-- The totals after blocks 15 and 31 are all thirty-two blocks. -/
theorem running_two_groups (B : ℕ → M) : running B 15 + running B 31 = ∑ j ∈ Finset.range 32, B j := by
  unfold running
  rw [show 16 * (15 / 16) = 0 from rfl, show 16 * (31 / 16) = 16 from rfl, show 15 + 1 = 16 from rfl,
    show 31 + 1 = 32 from rfl, Finset.sum_Ico_consecutive B (by omega) (by omega), Finset.range_eq_Ico]

/-- The first `N` blocks are the first `b * N` terms. -/
theorem sum_blockSum (b : ℕ) (f : ℕ → M) (N : ℕ) :
    ∑ j ∈ Finset.range N, blockSum b f j = ∑ r ∈ Finset.range (b * N), f r := by
  induction N with
  | zero => simp
  | succ N ih => rw [Finset.sum_range_succ, ih, Cert.RowBlocks.sum_range_block]; rfl

/-- So the two totals are the first `b * 32` terms. -/
theorem running_total (b : ℕ) (f : ℕ → M) :
    running (blockSum b f) 15 + running (blockSum b f) 31 = ∑ r ∈ Finset.range (b * 32), f r :=
  (running_two_groups _).trans (sum_blockSum b f 32)

end Cert.GridSum

end
-- ==== Proof.Points.lean ====
/-
  The accumulator and the output block, point by point.

  The grid's 32 points are visited in order; point `n` meets block `n` of the rows (2048 rows of the two feature
  arrays and of the distance column).  Write `blockAt n` for that block's total loss.  The [1,1] accumulator restarts
  at the points 0 and 16 (a core's first) and otherwise adds to what the point before left, so after point `n` it
  holds the running total `running blockAt n` of Proof/GridSum.lean: by induction on the point, one step per control
  case.  At the points 15 and 31 (a core's last) the output block is then the [8,128] block holding that total at
  row 0, lane 0 and 0 elsewhere.
-/
import proofs.«140014_j15839839388182_2_alg».proof.Proof.Pieces
import proofs.«140014_j15839839388182_2_alg».proof.Proof.Payloads
import proofs.«140014_j15839839388182_2_alg».proof.Proof.GridSum

noncomputable section

namespace Cert.KernelIdeal.Points

open Cert.KernelIdeal Cert.KernelIdeal.Gen Idealize.ShloMosaic Idealize.ShloMosaic.ValueIdx Idealize.ShloMosaic.TcCoe Idealize.SL.Sem
open Cert.GridSum

variable (m : (ℓ : Loc nD τ sig) → Buf (Elt Ideal) ℓ)

/-- The blocks the body meets at point `t`: of the two feature arrays and of the distance column. -/
abbrev blk0 (c : Dev nD) (t : Fin cfg0.N) : Vec Ideal S2048x512 .f32 := iblk m c 0 t
abbrev blk1 (c : Dev nD) (t : Fin cfg0.N) : Vec Ideal S2048x512 .f32 := iblk m c 1 t
abbrev blk2 (c : Dev nD) (t : Fin cfg0.N) : Vec Ideal S2048x1 .f32 := iblk m c 2 t

/-- The total loss of the block met at point `n` (0 past the grid). -/
def blockAt (c : Dev nD) (n : ℕ) : EReal :=
  if h : n < cfg0.N then Payloads.blockTotal (blk0 m c ⟨n, h⟩) (blk1 m c ⟨n, h⟩) (blk2 m c ⟨n, h⟩) else 0

theorem blockAt_of_lt (c : Dev nD) (n : ℕ) (h : n < cfg0.N) :
    blockAt m c n = Payloads.blockTotal (blk0 m c ⟨n, h⟩) (blk1 m c ⟨n, h⟩) (blk2 m c ⟨n, h⟩) := dif_pos h

/-- After point `n` the accumulator holds the running total of the blocks' totals. -/
theorem scratch_at (c : Dev nD) : ∀ (n : ℕ) (h : n < cfg0.N), (outsAt0 m c n h).2 = fun _ => running (blockAt m c) n := by
  intro n
  induction n using Nat.strong_induction_on with
  | _ n ih =>
    intro h
    have hN : n < 32 := lt_of_lt_of_eq h (show cfg0.N = 32 from N_0)
    by_cases h0 : n % 16 = 0
    · have h1 : ¬n % 16 = 15 := by omega
      refine (congrArg Prod.snd (outsAt0_A m c ⟨n, h⟩ h0 h1)).trans ?_
      refine (Pieces.scratch_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) ((hcond0_0 ⟨n, h⟩).mpr h0) (fun hh => h1 ((hcond0_1 ⟨n, h⟩).mp hh))
        (blk0 m c ⟨n, h⟩) (blk1 m c ⟨n, h⟩) (blk2 m c ⟨n, h⟩)).trans ?_
      funext y
      obtain rfl : y = ix2 (0 : Fin 1) (0 : Fin 1) := Cert.ColumnFolds.idx11 y
      refine (Payloads.pay3_apply (blk0 m c ⟨n, h⟩) (blk1 m c ⟨n, h⟩) (blk2 m c ⟨n, h⟩) (k0_pay2 (F := Ideal)) 0 0).trans ?_
      rw [Payloads.pay2_apply, zero_add, running_first _ _ h0, blockAt_of_lt m c n h]
    · have hlt : n - 1 < cfg0.N := Nat.lt_of_le_of_lt (Nat.sub_le _ _) h
      have e := ih (n - 1) (by omega) hlt
      by_cases h1 : n % 16 = 15
      · refine (congrArg Prod.snd (outsAt0_C m c ⟨n, h⟩ h0 h1)).trans ?_
        refine (Pieces.scratch_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) ((hcond0_1 ⟨n, h⟩).mpr h1)
          (blk0 m c ⟨n, h⟩) (blk1 m c ⟨n, h⟩) (blk2 m c ⟨n, h⟩) (outsAt0 m c (n - 1) hlt).2).trans ?_
        funext y
        obtain rfl : y = ix2 (0 : Fin 1) (0 : Fin 1) := Cert.ColumnFolds.idx11 y
        refine (Payloads.pay3_apply (blk0 m c ⟨n, h⟩) (blk1 m c ⟨n, h⟩) (blk2 m c ⟨n, h⟩) (outsAt0 m c (n - 1) hlt).2 0 0).trans ?_
        rw [running_next _ _ h0, blockAt_of_lt m c n h]
        exact congrArg (· + _) (congrFun e _)
      · refine (congrArg Prod.snd (outsAt0_B m c ⟨n, h⟩ h0 h1)).trans ?_
        refine (Pieces.scratch_B (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) (fun hh => h1 ((hcond0_1 ⟨n, h⟩).mp hh))
          (blk0 m c ⟨n, h⟩) (blk1 m c ⟨n, h⟩) (blk2 m c ⟨n, h⟩) (outsAt0 m c (n - 1) hlt).2).trans ?_
        funext y
        obtain rfl : y = ix2 (0 : Fin 1) (0 : Fin 1) := Cert.ColumnFolds.idx11 y
        refine (Payloads.pay3_apply (blk0 m c ⟨n, h⟩) (blk1 m c ⟨n, h⟩) (blk2 m c ⟨n, h⟩) (outsAt0 m c (n - 1) hlt).2 0 0).trans ?_
        rw [running_next _ _ h0, blockAt_of_lt m c n h]
        exact congrArg (· + _) (congrFun e _)

/-- At a core's last point the output block is `k0_pay1` of the accumulator's contents after the point. -/
theorem out_at (c : Dev nD) (n : ℕ) (h : n < cfg0.N) (h15 : n % 16 = 15) :
    (outsAt0 m c n h).1 = k0_pay1 (F := Ideal) (fun _ => running (blockAt m c) n) := by
  have h0 : ¬n % 16 = 0 := by omega
  have hlt : n - 1 < cfg0.N := Nat.lt_of_le_of_lt (Nat.sub_le _ _) h
  have e2 : (outsAt0 m c n h).2 = k0_pay3 (blk0 m c ⟨n, h⟩) (blk1 m c ⟨n, h⟩) (blk2 m c ⟨n, h⟩) (outsAt0 m c (n - 1) hlt).2 :=
    (congrArg Prod.snd (outsAt0_C m c ⟨n, h⟩ h0 h15)).trans
      (Pieces.scratch_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) ((hcond0_1 ⟨n, h⟩).mpr h15)
        (blk0 m c ⟨n, h⟩) (blk1 m c ⟨n, h⟩) (blk2 m c ⟨n, h⟩) (outsAt0 m c (n - 1) hlt).2)
  refine (congrArg Prod.fst (outsAt0_C m c ⟨n, h⟩ h0 h15)).trans ?_
  refine (Pieces.out_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) ((hcond0_1 ⟨n, h⟩).mpr h15)
    (blk0 m c ⟨n, h⟩) (blk1 m c ⟨n, h⟩) (blk2 m c ⟨n, h⟩) (outsAt0 m c (n - 1) hlt).2).trans ?_
  exact congrArg (k0_pay1 (F := Ideal)) (e2.symm.trans (scratch_at m c n h))

/-- So it holds the running total at row 0, lane 0, and 0 elsewhere. -/
theorem out_at_apply (c : Dev nD) (n : ℕ) (h : n < cfg0.N) (h15 : n % 16 = 15) (r : Fin 8) (l : Fin 128) :
    (outsAt0 m c n h).1 (ix2 r l) = if r.val = 0 ∧ l.val = 0 then running (blockAt m c) n else 0 := by
  rw [out_at m c n h h15]
  exact Payloads.pay1_apply (fun _ => running (blockAt m c) n) r l

end Cert.KernelIdeal.Points

end
-- ==== Proof.OutArray.lean ====
/-
  The kernel's output array after the run.

  The output is a [16, 128] array in two [8, 128] blocks, one per core: block `t / 16` is written back once, at the
  core's last point `t` (15 or 31), where it holds the core's total at row 0, lane 0 and 0 elsewhere.  So the array
  ends at

      outArr i = (the running total at point 16 · (i₀ / 8) + 15)   if i₀ % 8 = 0 and i₁ = 0,      0 otherwise:

  each written-back block is that function read through the block's rectangle (`flushed_eq`), and the two blocks
  cover the array (`cover`).
-/
import proofs.«140014_j15839839388182_2_alg».proof.Proof.Points
import Idealize.ShloMosaic.Lib.Pipeline.Value

noncomputable section

namespace Cert.KernelIdeal.OutArray

open Cert.KernelIdeal Cert.KernelIdeal.Gen Idealize.ShloMosaic Idealize.ShloMosaic.ValueIdx Idealize.ShloMosaic.TcCoe Idealize.SL.Sem
open Idealize.ShloMosaic.Pipeline (Dat)
open Cert.GridSum Cert.KernelIdeal.Points

variable (m : (ℓ : Loc nD τ sig) → Buf (Elt Ideal) ℓ)

/-- Where the windows' blocks sit, decided over the grid: the output's block index is (t / 16, 0), each input's (t, 0). -/
theorem idx_facts : ∀ t : Fin cfg0.N, win0_3.index t (0 : Fin 2) = t.val / 16 ∧ win0_3.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What the output array ends holding. -/
def outArr (c : Dev nD) : S16x128.Idx → EReal := fun i =>
  if (i 0).val % 8 = 0 ∧ (i 1).val = 0 then running (blockAt m c) (16 * ((i 0).val / 8) + 15) else 0

/-- What a core's last point writes back is its block of `outArr`. -/
theorem flushed_eq (c : Dev nD) (t : Fin cfg0.N) (hf : (cfg0.win 3).flush t = true) :
    (dats m 0 c).flushed 3 t = ((cfg0.win 3).blk t).view.read (Elt Ideal) (outArr m c) := by
  have h15 : t.val % 16 = 15 := (flush0_3 t).mp hf
  have hN : t.val < 32 := lt_of_lt_of_eq t.isLt (show cfg0.N = 32 from N_0)
  obtain ⟨f0, f1, -⟩ := idx_facts t
  show (cfg0.win 3).cut (grid0.coords t) ((dats m 0 c).after 3 t) = _
  rw [after0_3]
  funext j
  obtain ⟨r, l, rfl⟩ : ∃ (r : Fin 8) (l : Fin 128), j = ix2 r l := ⟨j 0, j 1, eq_ix2 j⟩
  show (outsAt0 m c t.val t.isLt).1 (ix2 r l) = outArr m c (((cfg0.win 3).blk t).view.emb (ix2 r l))
  rw [out_at_apply m c t.val t.isLt h15 r l]
  have e0 : ((((cfg0.win 3).blk t).view.emb (ix2 r l)) 0).val = win0_3.index t (0 : Fin 2) * 8 + 1 * r.val := rfl
  have e1 : ((((cfg0.win 3).blk t).view.emb (ix2 r l)) 1).val = win0_3.index t (1 : Fin 2) * 128 + 1 * l.val := rfl
  have hr := r.isLt
  have hl := l.isLt
  unfold outArr
  rw [e0, e1, f0, f1]
  by_cases h : r.val = 0 ∧ l.val = 0
  · rw [if_pos h, if_pos (by omega)]
    exact congrArg (running (blockAt m c)) (by omega)
  · rw [if_neg h, if_neg (by omega)]

/-- An index of the array is in point `t`'s block iff each coordinate is in the block's range on its axis. -/
theorem mem_blk (t : Fin cfg0.N) (i : S16x128.Idx) :
    i ∈ ((cfg0.win 3).blk t).view.set
      ↔ ∀ a : Fin 2, win0_3.index t a * S8x128.size a ≤ (i a).val ∧ (i a).val < win0_3.index t a * S8x128.size a + S8x128.size a := by
  show i ∈ ((View.whole main_v10).slice (win0_3.rect t)).set ↔ _
  rw [View.set_slice_whole, Rect.mem_set_unit]
  exact Iff.rfl

/-- Every index of the array is in the block of its core's last point. -/
theorem cover (i : S16x128.Idx) : ∃ t : Fin cfg0.N, (cfg0.win 3).flush t = true ∧ i ∈ ((cfg0.win 3).blk t).view.set := by
  have hi0 : (i 0).val < 16 := (i 0).isLt
  have hi1 : (i 1).val < 128 := (i 1).isLt
  have hN : cfg0.N = 32 := N_0
  refine ⟨⟨16 * ((i 0).val / 8) + 15, by omega⟩, (flush0_3 _).mpr (by show (16 * ((i 0).val / 8) + 15) % 16 = 15; omega), ?_⟩
  rw [mem_blk]
  obtain ⟨f0, f1, -⟩ := idx_facts ⟨16 * ((i 0).val / 8) + 15, by omega⟩
  intro a
  match a with
  | ⟨0, _⟩ =>
    show win0_3.index ⟨16 * ((i 0).val / 8) + 15, _⟩ (0 : Fin 2) * 8 ≤ (i 0).val
      ∧ (i 0).val < win0_3.index ⟨16 * ((i 0).val / 8) + 15, _⟩ (0 : Fin 2) * 8 + 8
    rw [f0]; show (16 * ((i 0).val / 8) + 15) / 16 * 8 ≤ (i 0).val ∧ (i 0).val < (16 * ((i 0).val / 8) + 15) / 16 * 8 + 8; omega
  | ⟨1, _⟩ =>
    show win0_3.index ⟨16 * ((i 0).val / 8) + 15, _⟩ (1 : Fin 2) * 128 ≤ (i 1).val
      ∧ (i 1).val < win0_3.index ⟨16 * ((i 0).val / 8) + 15, _⟩ (1 : Fin 2) * 128 + 128
    rw [f1]; omega

/-- So the output array ends at `outArr`. -/
theorem final (c : Dev nD) : (dats m 0 c).arrAt 3 cfg0.N = outArr m c :=
  (dats m 0 c).arrAt_eq_of_cover 3 (outArr m c) (flushed_eq m c) (cover)

end Cert.KernelIdeal.OutArray

end
-- ==== Proof.LossSpec.lean ====
/-
  The number both programs compute, as one expression of the five argument arrays on the extended reals.

  For feature arrays `X0 X1 : [65536, 512]` and small arrays `Y2 Y3 Y4 : [65536, 2]`:

      result = (0 + Σ over the rows r of  loss (row r of X0) (row r of X1) (dist (sq (row r of Y2) (row r of Y3))))
               + (0 + Σ over all entries j of (Y2 j − Y4 j)²),

  with `loss`, `dist`, `sq` of Proof/RowLoss.lean (the two `0 +` are the host sums' initial values).  The rows' losses
  are also given as a sequence on ℕ (0 past the last row), the form in which the sum is regrouped by blocks.
-/
import proofs.«140014_j15839839388182_2_alg».proof.Proof.RowLoss
import proofs.«140014_j15839839388182_2_alg».proof.Proof.LibRowBlocks
import Idealize.ShloMosaic.Lib.ValueIdx

noncomputable section

namespace Cert.LossSpec

open Idealize.ShloMosaic Idealize.ShloMosaic.ValueIdx Cert.RowLoss
open scoped BigOperators

/-- A [65536, 512] array and a [65536, 2] array of extended reals. -/
abbrev Wide : Type := (⟨2, ![65536, 512]⟩ : Shape).Idx → EReal
abbrev Narrow : Type := (⟨2, ![65536, 2]⟩ : Shape).Idx → EReal

/-- Row `r` of each. -/
abbrev wideRow (X : Wide) (r : Fin 65536) : Fin 512 → EReal := fun k => X (ix2 r k)
abbrev narrowRow (Y : Narrow) (r : Fin 65536) : Fin 2 → EReal := fun k => Y (ix2 r k)

/-- The second distance of row `r`. -/
def dyRow (Y2 Y3 : Narrow) (r : Fin 65536) : EReal := dist (sq (narrowRow Y2 r) (narrowRow Y3 r))

/-- Row `r`'s loss. -/
def rowLoss (X0 X1 : Wide) (Y2 Y3 : Narrow) (r : Fin 65536) : EReal :=
  loss (wideRow X0 r) (wideRow X1 r) (dyRow Y2 Y3 r)

/-- The sum over all entries of `(Y2 − Y4)²`. -/
def gtSum (Y2 Y4 : Narrow) : EReal := ∑ j : (⟨2, ![65536, 2]⟩ : Shape).Idx, (Y2 j - Y4 j) * (Y2 j - Y4 j)

/-- The result. -/
def result (X0 X1 : Wide) (Y2 Y3 Y4 : Narrow) : EReal :=
  (zero + ∑ r : Fin 65536, rowLoss X0 X1 Y2 Y3 r) + (zero + gtSum Y2 Y4)

/-- The rows' losses as a sequence on ℕ: 0 past the last row. -/
def rowLossNat (X0 X1 : Wide) (Y2 Y3 : Narrow) (r : ℕ) : EReal :=
  if h : r < 65536 then rowLoss X0 X1 Y2 Y3 ⟨r, h⟩ else 0

theorem rowLossNat_of_lt (X0 X1 : Wide) (Y2 Y3 : Narrow) (r : ℕ) (h : r < 65536) :
    rowLossNat X0 X1 Y2 Y3 r = rowLoss X0 X1 Y2 Y3 ⟨r, h⟩ := dif_pos h

/-- Its first 65536 terms add up to the sum over the rows. -/
theorem sum_rowLossNat (X0 X1 : Wide) (Y2 Y3 : Narrow) :
    ∑ r ∈ Finset.range 65536, rowLossNat X0 X1 Y2 Y3 r = ∑ r : Fin 65536, rowLoss X0 X1 Y2 Y3 r :=
  Cert.RowBlocks.sum_range_fin 65536 _ _ fun k => rowLossNat_of_lt X0 X1 Y2 Y3 k.val k.isLt

end Cert.LossSpec

end
-- ==== Proof.LibHostPointwise.lean ====
/-
  The host's square root and quotient read at an index, on the extended reals: each acts entry by entry, as the exact
  square root and the exact quotient, for arrays of any shape.
-/
import Idealize.ShloMosaic.PureOps.Ideal
import Idealize.ShloMosaic.Lib.ValueIdx

noncomputable section

namespace Cert.HostPointwise

open Idealize.ShloMosaic

variable {s : Shape}

/-- The host's square root at an index is the square root of the entry. -/
theorem hostSqrt_apply (v : FVec Ideal s .f32) (i : s.Idx) : Host.sqrt v i = Ideal.sqrt (v i) := rfl

/-- The host's quotient at an index is the quotient of the entries. -/
theorem hostDivf_apply (a b : FVec Ideal s .f32) (i : s.Idx) : Host.divf a b i = Ideal.div (a i) (b i) := rfl

end Cert.HostPointwise

end
-- ==== Proof.HostPrefix.lean ====
/-
  What the kernel's @main computes on the host before the region, read back.

  Before the pallas_call @main computes the column of second distances (`main_v6`, [65536, 1]: per row
  `√((0 + Σ_k (x2 − x3)²) + ε)`, the row sums kept as a column) — the region's third operand — and the sum over every
  entry of `(x2 − x4)²` (`main_v9`), which is added to the kernel's total after the region.  Both are what the region
  finds in those buffers (`V`), as functions of the argument arrays; at a row the column is `LossSpec.dyRow`, and the
  sum is `0 + LossSpec.gtSum`.
-/
import proofs.«140014_j15839839388182_2_alg».proof.Proof.Gen.KernelIdeal.Frame
import proofs.«140014_j15839839388182_2_alg».proof.Proof.LossSpec
import proofs.«140014_j15839839388182_2_alg».proof.Proof.LibHostPointwise
import Idealize.ShloMosaic.Lib.StableHlo.Run
import Idealize.ShloMosaic.Lib.Pipeline.Value
import Idealize.ShloMosaic.PureOps.Ideal.Laws

noncomputable section

namespace Cert.KernelIdeal.HostPrefix

open Cert.KernelIdeal Cert.KernelIdeal.Gen Idealize.ShloMosaic Idealize.ShloMosaic.ValueIdx Idealize.ShloMosaic.TcCoe Idealize.SL.Sem
open Idealize.ShloMosaic.StableHlo
open Cert.RowLoss Cert.LossSpec
open scoped BigOperators

/-! ## The stages, at any float instance -/

section Stages
variable {F : FTy → Type} [FloatOps F]

def sqN (a2 a3 : (⟨S65536x2, .f32⟩ : BufTy).Contents (Elt F)) : (⟨S65536x2, .f32⟩ : BufTy).Contents (Elt F) := mulf (subf a2 a3) (subf a2 a3)
def ssN (a2 a3 : (⟨S65536x2, .f32⟩ : BufTy).Contents (Elt F)) : (⟨S65536, .f32⟩ : BufTy).Contents (Elt F) :=
  Host.reduceAdd (sqN a2 a3) (constant S_ .f32 0x00000000#32) reducesTo_S65536x2_S65536_d1 h_S_
def ssCol (a2 a3 : (⟨S65536x2, .f32⟩ : BufTy).Contents (Elt F)) : (⟨S65536x1, .f32⟩ : BufTy).Contents (Elt F) := broadcastInDim S65536x1 ![0] bcast_S65536_S65536x1_0 (ssN a2 a3)
def epsCol : (⟨S65536x1, .f32⟩ : BufTy).Contents (Elt F) := broadcastInDim S65536x1 ![] bcast_S_S65536x1 (constant S_ .f32 0x358637BD#32)
/-- The column of second distances. -/
def dyCol (a2 a3 : (⟨S65536x2, .f32⟩ : BufTy).Contents (Elt F)) : (⟨S65536x1, .f32⟩ : BufTy).Contents (Elt F) := Host.sqrt (addf (ssCol a2 a3) epsCol)
/-- The second term of the result. -/
def gtK (a2 a4 : (⟨S65536x2, .f32⟩ : BufTy).Contents (Elt F)) : (⟨S_, .f32⟩ : BufTy).Contents (Elt F) :=
  Host.reduceAdd (sqN a2 a4) (constant S_ .f32 0x00000000#32) reducesTo_S65536x2_S_d0_1 h_S_

variable (m : (ℓ : Loc nD τ sig) → Buf (Elt F) ℓ)

/-- The region finds the distance column in `main_v6`, -/
theorem V_main_v6 (c : Dev nD) :
    V m c main_v6 = dyCol (m ((c : Thread nD τ).loc main_arg2)) (m ((c : Thread nD τ).loc main_arg3)) := by
  show StableHlo.after hostOps0 (fun b => m (c, b)) (Proc.devRef .tc main_v6) = _
  after_results
  rfl

/-- and the second term in `main_v9`. -/
theorem V_main_v9 (c : Dev nD) :
    V m c main_v9 = gtK (m ((c : Thread nD τ).loc main_arg2)) (m ((c : Thread nD τ).loc main_arg4)) := by
  show StableHlo.after hostOps0 (fun b => m (c, b)) (Proc.devRef .tc main_v9) = _
  after_results
  rfl

end Stages

/-! ## At an index, on the extended reals -/

variable (a2 a3 a4 : (⟨S65536x2, .f32⟩ : BufTy).Contents (Elt Ideal))

theorem sqN_apply (i : S65536x2.Idx) : sqN (F := Ideal) a2 a3 i = (a2 i - a3 i) * (a2 i - a3 i) := rfl

theorem ssN_apply (r : Fin 65536) : ssN (F := Ideal) a2 a3 (ix1 r) = zero + RowLoss.sq (narrowRow a2 r) (narrowRow a3 r) := by
  unfold ssN RowLoss.sq
  generalize hy : sqN (F := Ideal) a2 a3 = y0
  simp only [Host.reduceAdd, Ideal.hostReduceAdd_def]
  rw [Ideal.hostReduceAdd_single reducesTo_S65536x2_S65536_d1 (by decide)]
  subst hy
  refine congrArg (_ + ·) (Finset.sum_congr rfl fun k _ => ?_)
  exact (congrArg (sqN (F := Ideal) a2 a3) (funext fun a => Fin.ext (by match a with | ⟨0, _⟩ => rfl | ⟨1, _⟩ => rfl))).trans (sqN_apply a2 a3 (ix2 r k))

theorem ssCol_apply (r : Fin 65536) (u : Fin 1) : ssCol (F := Ideal) a2 a3 (ix2 r u) = ssN (F := Ideal) a2 a3 (ix1 r) := by
  unfold ssCol
  exact broadcastInDim_apply _ bcast_S65536_S65536x1_0 _ (ix2 r u) (ix1 r) fun a => by
    match a with
    | ⟨0, _⟩ => rfl

theorem epsCol_apply (i : S65536x1.Idx) : epsCol (F := Ideal) i = eps := by
  unfold epsCol
  exact (broadcastInDim_apply _ bcast_S_S65536x1 _ i (fun a => a.elim0) (fun a => a.elim0)).trans rfl

/-- The distance column at row `r`. -/
theorem dyCol_apply (r : Fin 65536) (u : Fin 1) : dyCol (F := Ideal) a2 a3 (ix2 r u) = dyRow a2 a3 r := by
  unfold dyCol dyRow RowLoss.dist
  rw [Cert.HostPointwise.hostSqrt_apply, addf_apply, ssCol_apply, ssN_apply, epsCol_apply, zero_eq, zero_add]

/-- The second term. -/
theorem gtK_apply (i : S_.Idx) : gtK (F := Ideal) a2 a4 i = zero + gtSum a2 a4 := by
  unfold gtK
  generalize hy : sqN (F := Ideal) a2 a4 = y0
  simp only [Host.reduceAdd, Ideal.hostReduceAdd_def]
  rw [Ideal.hostReduceAdd_total reducesTo_S65536x2_S_d0_1 (fun b => b.elim0)]
  subst hy
  rfl

end Cert.KernelIdeal.HostPrefix

end
-- ==== Proof.Blocks.lean ====
/-
  The blocks the body meets are rows of the arrays, so a point's total is a block of the rows' losses.

  At point `t` the three input windows sit at block index `(t, 0)`: the feature blocks are rows `2048·t … 2048·t + 2047`
  of the two feature arrays, and the column block the same rows of the distance column the host computed.  Hence the
  loss of row `q` of the block is `LossSpec.rowLoss` of row `2048·t + q`, and the point's total `blockAt t` is block `t`
  (of 2048 terms) of the sequence of the rows' losses.
-/
import proofs.«140014_j15839839388182_2_alg».proof.Proof.OutArray
import proofs.«140014_j15839839388182_2_alg».proof.Proof.HostPrefix

noncomputable section

namespace Cert.KernelIdeal.Blocks

open Cert.KernelIdeal Cert.KernelIdeal.Gen Idealize.ShloMosaic Idealize.ShloMosaic.ValueIdx Idealize.ShloMosaic.TcCoe Idealize.SL.Sem
open Cert.GridSum Cert.RowLoss Cert.LossSpec
open Cert.KernelIdeal.Points Cert.KernelIdeal.OutArray Cert.KernelIdeal.HostPrefix
open scoped BigOperators

variable (m : (ℓ : Loc nD τ sig) → Buf (Elt Ideal) ℓ)

/-- The five argument arrays as launched. -/
abbrev X0 (c : Dev nD) : Wide := m ((c : Thread nD τ).loc main_arg0)
abbrev X1 (c : Dev nD) : Wide := m ((c : Thread nD τ).loc main_arg1)
abbrev Y2 (c : Dev nD) : Narrow := m ((c : Thread nD τ).loc main_arg2)
abbrev Y3 (c : Dev nD) : Narrow := m ((c : Thread nD τ).loc main_arg3)
abbrev Y4 (c : Dev nD) : Narrow := m ((c : Thread nD τ).loc main_arg4)

/-- Row `q` of the first feature block at point `t` is row `2048·t + q` of the first feature array, -/
theorem blk0_apply (c : Dev nD) (t : Fin cfg0.N) (q : Fin 2048) (k : Fin 512) (hr : 2048 * t.val + q.val < 65536) :
    blk0 m c t (ix2 q k) = X0 m c (ix2 ⟨2048 * t.val + q.val, hr⟩ k) := by
  obtain ⟨-, -, f0, f1, -⟩ := idx_facts t
  unfold blk0 iblk
  rw [View.read_apply]
  show V m c main_arg0 _ = m (c.tc.loc main_arg0) _
  rw [V_main_arg0]
  congr 1
  funext a
  apply Fin.ext
  match a with
  | ⟨0, _⟩ => show win0_0.index t (0 : Fin 2) * 2048 + 1 * q.val = 2048 * t.val + q.val; rw [f0]; omega
  | ⟨1, _⟩ => show win0_0.index t (1 : Fin 2) * 512 + 1 * k.val = k.val; rw [f1]; omega

/-- likewise the second, -/
theorem blk1_apply (c : Dev nD) (t : Fin cfg0.N) (q : Fin 2048) (k : Fin 512) (hr : 2048 * t.val + q.val < 65536) :
    blk1 m c t (ix2 q k) = X1 m c (ix2 ⟨2048 * t.val + q.val, hr⟩ k) := by
  obtain ⟨-, -, -, -, f0, f1, -⟩ := idx_facts t
  unfold blk1 iblk
  rw [View.read_apply]
  show V m c main_arg1 _ = m (c.tc.loc main_arg1) _
  rw [V_main_arg1]
  congr 1
  funext a
  apply Fin.ext
  match a with
  | ⟨0, _⟩ => show win0_1.index t (0 : Fin 2) * 2048 + 1 * q.val = 2048 * t.val + q.val; rw [f0]; omega
  | ⟨1, _⟩ => show win0_1.index t (1 : Fin 2) * 512 + 1 * k.val = k.val; rw [f1]; omega

/-- and entry `q` of the column block is entry `2048·t + q` of the distance column. -/
theorem blk2_apply (c : Dev nD) (t : Fin cfg0.N) (q : Fin 2048) (u : Fin 1) (hr : 2048 * t.val + q.val < 65536) :
    blk2 m c t (ix2 q u) = (V m c main_v6 : S65536x1.Idx → EReal) (ix2 ⟨2048 * t.val + q.val, hr⟩ u) := by
  obtain ⟨-, -, -, -, -, -, f0, f1⟩ := idx_facts t
  unfold blk2 iblk
  rw [View.read_apply]
  show V m c main_v6 _ = V m c main_v6 _
  congr 1
  funext a
  apply Fin.ext
  match a with
  | ⟨0, _⟩ => show win0_2.index t (0 : Fin 2) * 2048 + 1 * q.val = 2048 * t.val + q.val; rw [f0]; omega
  | ⟨1, _⟩ => show win0_2.index t (1 : Fin 2) * 1 + 1 * u.val = u.val; rw [f1]; omega

/-- A point's total is its block of the rows' losses. -/
theorem blockAt_eq (c : Dev nD) :
    blockAt m c = blockSum 2048 (rowLossNat (X0 m c) (X1 m c) (Y2 m c) (Y3 m c)) := by
  funext n
  unfold blockSum
  by_cases h : n < cfg0.N
  · have hN : n < 32 := lt_of_lt_of_eq h (show cfg0.N = 32 from N_0)
    rw [blockAt_of_lt m c n h]
    unfold Payloads.blockTotal
    refine Finset.sum_congr rfl fun q _ => ?_
    have hq := q.isLt
    have hr : 2048 * n + q.val < 65536 := by omega
    rw [rowLossNat_of_lt _ _ _ _ _ hr]
    unfold rowLoss
    have ea : Payloads.rowOf (blk0 m c ⟨n, h⟩) q = wideRow (X0 m c) ⟨2048 * n + q.val, hr⟩ :=
      funext fun k => blk0_apply m c ⟨n, h⟩ q k hr
    have eb : Payloads.rowOf (blk1 m c ⟨n, h⟩) q = wideRow (X1 m c) ⟨2048 * n + q.val, hr⟩ :=
      funext fun k => blk1_apply m c ⟨n, h⟩ q k hr
    have ed : blk2 m c ⟨n, h⟩ (ix2 q (0 : Fin 1)) = dyRow (Y2 m c) (Y3 m c) ⟨2048 * n + q.val, hr⟩ := by
      rw [blk2_apply m c ⟨n, h⟩ q 0 hr, V_main_v6]
      exact dyCol_apply (Y2 m c) (Y3 m c) ⟨2048 * n + q.val, hr⟩ 0
    rw [ea, eb, ed]
  · have hN : 32 ≤ n := by have e : cfg0.N = 32 := N_0; omega
    unfold blockAt
    rw [dif_neg h]
    exact (Finset.sum_eq_zero fun q _ => by unfold rowLossNat; exact dif_neg (by omega)).symm

end Cert.KernelIdeal.Blocks

end
-- ==== Proof.TwoCells.lean ====
/-
  A [16, 128] table that is zero except in the first lane of rows 0 and 8 sums to those two cells.

  The cell of row `a` holds `R (16 * (a / 8) + 15)`: row 0's is `R 15`, row 8's is `R 31`.  Only the commutative-monoid
  laws are used.
-/
import Mathlib.Algebra.BigOperators.Fin
import Mathlib.Algebra.BigOperators.Group.Finset.Basic

namespace Cert.TwoCells

open scoped BigOperators

variable {M : Type*} [AddCommMonoid M]

/-- Along a row only lane 0 can be non-zero. -/
theorem row_sum (x : M) (a : Fin 16) :
    ∑ b : Fin 128, (if a.val % 8 = 0 ∧ b.val = 0 then x else 0) = if a.val % 8 = 0 then x else 0 := by
  rw [Finset.sum_eq_single (0 : Fin 128)]
  · by_cases h : a.val % 8 = 0
    · rw [if_pos ⟨h, rfl⟩, if_pos h]
    · rw [if_neg (fun e => h e.1), if_neg h]
  · intro b _ hb
    exact if_neg fun e => hb (Fin.ext e.2)
  · intro h; exact absurd (Finset.mem_univ _) h

/-- The rows whose number is a multiple of 8 are rows 0 and 8. -/
theorem rows_filter : (Finset.univ.filter fun a : Fin 16 => a.val % 8 = 0) = {0, 8} := by decide

/-- The whole table sums to the two cells. -/
theorem sum_two_cells (R : ℕ → M) :
    ∑ a : Fin 16, ∑ b : Fin 128, (if a.val % 8 = 0 ∧ b.val = 0 then R (16 * (a.val / 8) + 15) else 0) = R 15 + R 31 := by
  rw [Finset.sum_congr rfl fun a _ => row_sum (R (16 * (a.val / 8) + 15)) a, ← Finset.sum_filter, rows_filter,
    Finset.sum_pair (by decide)]
  rfl

end Cert.TwoCells
-- ==== Proof.Result.lean ====
/-
  The kernel's run read to its result: the common expression `LossSpec.result` of the arguments.

  After the region @main sums the [16, 128] output array (from 0) and adds the second term the host computed before
  the region.  The array is zero except in the first lane of rows 0 and 8, which hold the two cores' totals
  (Proof/OutArray.lean), so its sum is those two (Proof/TwoCells.lean); each total is the running total at the core's last
  point, and the two together are all thirty-two blocks of 2048 rows' losses (Proof/GridSum.lean, Proof/Blocks.lean),
  i.e. the sum over all 65536 rows.
-/
import proofs.«140014_j15839839388182_2_alg».proof.Proof.Blocks
import proofs.«140014_j15839839388182_2_alg».proof.Proof.TwoCells
import Idealize.ShloMosaic.Lib.StableHlo.Run
import Idealize.ShloMosaic.Lib.Pipeline.FrameSuffix

noncomputable section

namespace Cert.KernelIdeal.Result

open Cert.KernelIdeal Cert.KernelIdeal.Gen Idealize.ShloMosaic Idealize.ShloMosaic.ValueIdx Idealize.ShloMosaic.TcCoe Idealize.SL.Sem
open Idealize.ShloMosaic.StableHlo
open Idealize.ShloMosaic.Pipeline (Dat)
open Cert.GridSum Cert.RowLoss Cert.LossSpec
open Cert.KernelIdeal.Points Cert.KernelIdeal.OutArray Cert.KernelIdeal.HostPrefix Cert.KernelIdeal.Blocks
open scoped BigOperators

variable (m : (ℓ : Loc nD τ sig) → Buf (Elt Ideal) ℓ) (ρ : Dev nD → PrngReg)

/-- After the region the output array's buffer holds `outArr`, -/
theorem tail_v10 (c : Dev nD) : Pipeline.withArrays (cfgs 0).spec c (V0 m c) (fun w => (dats m 0 c).arrAt w (cfgs 0).N) (Proc.devRef .tc main_v10) = outArr m c :=
  (Pipeline.withArrays_arr spec0 launch0.win.arr_inj c _ _ 3).trans (OutArray.final m c)

/-- and the second term's buffer what the host put there before the region. -/
theorem tail_v9 (c : Dev nD) : Pipeline.withArrays (cfgs 0).spec c (V0 m c) (fun w => (dats m 0 c).arrAt w (cfgs 0).N) (Proc.devRef .tc main_v9) = gtK (F := Ideal) (Y2 m c) (Y4 m c) :=
  (Pipeline.withArrays_of_ne spec0 c _ _ main_v9 (by decide)).trans (V_main_v9 m c)

/-- The lines after the region: the array's sum from 0, plus the second term. -/
theorem tail_eq (c : Dev nD) :
    Pipeline.afterTail₀ cfgs (dats m) 0 (V0 m) [hostOps1] c main_v12
      = addf (F := Ideal) (Host.reduceAdd (F := Ideal) (outArr m c) (constant (F := Ideal) S_ .f32 0x00000000#32) reducesTo_S16x128_S_d0_1 h_S_)
          (gtK (F := Ideal) (Y2 m c) (Y4 m c)) := by
  unfold Pipeline.afterTail₀
  show StableHlo.after hostOps1 _ (Proc.devRef .tc main_v12) = _
  after_results
  rw [tail_v10 m c, tail_v9 m c]

/-- A cell of the output array, by its row and lane. -/
theorem outArr_cell (c : Dev nD) (a : Fin 16) (b : Fin 128) :
    outArr m c (ix2 a b) = if a.val % 8 = 0 ∧ b.val = 0 then running (blockAt m c) (16 * (a.val / 8) + 15) else 0 := rfl

/-- The array's sum from 0 is 0 plus the sum over all rows of their losses. -/
theorem outSum_apply (c : Dev nD) (i : S_.Idx) :
    Host.reduceAdd (F := Ideal) (outArr m c) (constant S_ .f32 0x00000000#32) reducesTo_S16x128_S_d0_1 h_S_ i
      = zero + ∑ r : Fin 65536, rowLoss (X0 m c) (X1 m c) (Y2 m c) (Y3 m c) r := by
  generalize hy : outArr m c = y0
  simp only [Host.reduceAdd, Ideal.hostReduceAdd_def]
  rw [Ideal.hostReduceAdd_total reducesTo_S16x128_S_d0_1 (fun b => b.elim0)]
  subst hy
  refine congrArg (_ + ·) ?_
  rw [Cert.RowBlocks.sum_idx_rows,
    Finset.sum_congr rfl fun a _ => Finset.sum_congr rfl fun b _ => outArr_cell m c a b,
    Cert.TwoCells.sum_two_cells, blockAt_eq, running_total]
  exact sum_rowLossNat (X0 m c) (X1 m c) (Y2 m c) (Y3 m c)

/-- The result buffer after the run. -/
theorem result_eq (c : Dev nD) :
    Pipeline.afterTail₀ cfgs (dats m) 0 (V0 m) [hostOps1] c main_v12
      = fun _ => result (X0 m c) (X1 m c) (Y2 m c) (Y3 m c) (Y4 m c) := by
  rw [tail_eq]
  funext i
  unfold result
  rw [addf_apply, outSum_apply, gtK_apply]

/-- Every weakly fair execution of the idealized kernel's @main terminates with the result at the common expression
    and the arguments unchanged. -/
theorem run : θ_run defs (onTc (τ := τ) (main (F := Ideal))) ⟨m, fun _ => 0, ρ⟩ fun r => ∀ c : Dev nD,
      r.2.mem ((c.tc : Thread nD τ).loc main_v12) = (fun _ => result (X0 m c) (X1 m c) (Y2 m c) (Y3 m c) (Y4 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v12 (Pipeline.mem_restRefs_of main_v12 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.RefRun.lean ====
/-
  The reference's run, read back.  Its @main is a straight line of 32 host operations (the outlined `jnp.where` inlined
  at its call: a broadcast of the scalar 1 and a select).  Every weakly fair execution terminates with the result at

      total = (0 + Σ over the rows r of  (dX r − dY r)² / w r)  +  (0 + Σ over all entries of (x2 − x4)²),

  where `dX`, `dY` are the two distances `√(Σ_k (·−·)² + ε)` of a row, and `w r` is 1 when the conjunction over the
  lanes of the comparison bits `x0 = x1` is 1 and `dX r` otherwise; the arguments end unchanged.  The inlined call moves
  its values between a tensor's own type and its buffer's type; at these literal buffers each such move is the
  identity (`wgt_eq`).
-/
import proofs.«140014_j15839839388182_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 32 operations, in order (a called function's operations stand in its call's place, spelt `TRef.…`). -/
abbrev ops : List (HloOp τ sig (Elt F)) :=
  [ binary main_arg0 main_arg1 main_v0 (subf : (⟨S65536x512, .f32⟩ : BufTy).Contents (Elt F) → (⟨S65536x512, .f32⟩ : BufTy).Contents (Elt F) → (⟨S65536x512, .f32⟩ : BufTy).Contents (Elt F)),
    binary main_v0 main_v0 main_v1 (mulf : (⟨S65536x512, .f32⟩ : BufTy).Contents (Elt F) → (⟨S65536x512, .f32⟩ : BufTy).Contents (Elt F) → (⟨S65536x512, .f32⟩ : BufTy).Contents (Elt F)),
    nullary main_cst (constant S_ .f32 0x00000000#32),
    binary main_v1 main_cst main_v2 ((fun x v => Host.reduceAdd x v reducesTo_S65536x512_S65536_d1 h_S_) : (⟨S65536x512, .f32⟩ : BufTy).Contents (Elt F) → (⟨S_, .f32⟩ : BufTy).Contents (Elt F) → (⟨S65536, .f32⟩ : BufTy).Contents (Elt F)),
    nullary main_cst_0 (constant S_ .f32 0x358637BD#32),
    unary main_cst_0 main_v3 (broadcastInDim S65536 ![] bcast_S_S65536 : (⟨S_, .f32⟩ : BufTy).Contents (Elt F) → (⟨S65536, .f32⟩ : BufTy).Contents (Elt F)),
    binary main_v2 main_v3 main_v4 (addf : (⟨S65536, .f32⟩ : BufTy).Contents (Elt F) → (⟨S65536, .f32⟩ : BufTy).Contents (Elt F) → (⟨S65536, .f32⟩ : BufTy).Contents (Elt F)),
    unary main_v4 main_v5 (Host.sqrt : (⟨S65536, .f32⟩ : BufTy).Contents (Elt F) → (⟨S65536, .f32⟩ : BufTy).Contents (Elt F)),
    binary main_arg2 main_arg3 main_v6 (subf : (⟨S65536x2, .f32⟩ : BufTy).Contents (Elt F) → (⟨S65536x2, .f32⟩ : BufTy).Contents (Elt F) → (⟨S65536x2, .f32⟩ : BufTy).Contents (Elt F)),
    binary main_v6 main_v6 main_v7 (mulf : (⟨S65536x2, .f32⟩ : BufTy).Contents (Elt F) → (⟨S65536x2, .f32⟩ : BufTy).Contents (Elt F) → (⟨S65536x2, .f32⟩ : BufTy).Contents (Elt F)),
    nullary main_cst_1 (constant S_ .f32 0x00000000#32),
    binary main_v7 main_cst_1 main_v8 ((fun x v => Host.reduceAdd x v reducesTo_S65536x2_S65536_d1 h_S_) : (⟨S65536x2, .f32⟩ : BufTy).Contents (Elt F) → (⟨S_, .f32⟩ : BufTy).Contents (Elt F) → (⟨S65536, .f32⟩ : BufTy).Contents (Elt F)),
    nullary main_cst_2 (constant S_ .f32 0x358637BD#32),
    unary main_cst_2 main_v9 (broadcastInDim S65536 ![] bcast_S_S65536 : (⟨S_, .f32⟩ : BufTy).Contents (Elt F) → (⟨S65536, .f32⟩ : BufTy).Contents (Elt F)),
    binary main_v8 main_v9 main_v10 (addf : (⟨S65536, .f32⟩ : BufTy).Contents (Elt F) → (⟨S65536, .f32⟩ : BufTy).Contents (Elt F) → (⟨S65536, .f32⟩ : BufTy).Contents (Elt F)),
    unary main_v10 main_v11 (Host.sqrt : (⟨S65536, .f32⟩ : BufTy).Contents (Elt F) → (⟨S65536, .f32⟩ : BufTy).Contents (Elt F)),
    binary main_arg0 main_arg1 main_v12 (cmpf .oeq : (⟨S65536x512, .f32⟩ : BufTy).Contents (Elt F) → (⟨S65536x512, .f32⟩ : BufTy).Contents (Elt F) → (⟨S65536x512, .i1⟩ : BufTy).Contents (Elt F)),
    nullary main_c (constantI S_ 1 1#1),
    binary main_v12 main_c main_v13 ((fun x v => Host.reduce IntOp.andi x v reducesTo_S65536x512_S65536_d1 h_S_) : (⟨S65536x512, .i1⟩ : BufTy).Contents (Elt F) → (⟨S_, .i1⟩ : BufTy).Contents (Elt F) → (⟨S65536, .i1⟩ : BufTy).Contents (Elt F)),
    nullary main_cst_3 (constant S_ .f32 0x3F800000#32),
    TRef.unary (TRef.of (T := ⟨S_, .f32⟩) main_cst_3) (TRef.of (T := ⟨S65536, .f32⟩) main_call0_v0) (broadcastInDim S65536 ![] bcast_S_S65536),
    TRef.ternary (TRef.of (T := ⟨S65536, .i1⟩) main_v13) (TRef.of (T := ⟨S65536, .f32⟩) main_call0_v0) (TRef.of (T := ⟨S65536, .f32⟩) main_v5) (TRef.of (T := ⟨S65536, .f32⟩) main_v14) select,
    binary main_v5 main_v11 main_v15 (subf : (⟨S65536, .f32⟩ : BufTy).Contents (Elt F) → (⟨S65536, .f32⟩ : BufTy).Contents (Elt F) → (⟨S65536, .f32⟩ : BufTy).Contents (Elt F)),
    binary main_v15 main_v15 main_v16 (mulf : (⟨S65536, .f32⟩ : BufTy).Contents (Elt F) → (⟨S65536, .f32⟩ : BufTy).Contents (Elt F) → (⟨S65536, .f32⟩ : BufTy).Contents (Elt F)),
    binary main_v16 main_v14 main_v17 (Host.divf : (⟨S65536, .f32⟩ : BufTy).Contents (Elt F) → (⟨S65536, .f32⟩ : BufTy).Contents (Elt F) → (⟨S65536, .f32⟩ : BufTy).Contents (Elt F)),
    nullary main_cst_4 (constant S_ .f32 0x00000000#32),
    binary main_v17 main_cst_4 main_v18 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    binary main_arg2 main_arg4 main_v19 (subf : (⟨S65536x2, .f32⟩ : BufTy).Contents (Elt F) → (⟨S65536x2, .f32⟩ : BufTy).Contents (Elt F) → (⟨S65536x2, .f32⟩ : BufTy).Contents (Elt F)),
    binary main_v19 main_v19 main_v20 (mulf : (⟨S65536x2, .f32⟩ : BufTy).Contents (Elt F) → (⟨S65536x2, .f32⟩ : BufTy).Contents (Elt F) → (⟨S65536x2, .f32⟩ : BufTy).Contents (Elt F)),
    nullary main_cst_5 (constant S_ .f32 0x00000000#32),
    binary main_v20 main_cst_5 main_v21 ((fun x v => Host.reduceAdd x v reducesTo_S65536x2_S_d0_1 h_S_) : (⟨S65536x2, .f32⟩ : BufTy).Contents (Elt F) → (⟨S_, .f32⟩ : BufTy).Contents (Elt F) → (⟨S_, .f32⟩ : BufTy).Contents (Elt F)),
    binary main_v18 main_v21 main_v22 (addf : (⟨S_, .f32⟩ : BufTy).Contents (Elt F) → (⟨S_, .f32⟩ : BufTy).Contents (Elt F) → (⟨S_, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., nullary_bufs_sub .., binary_bufs_sub .., nullary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., binary_bufs_sub .., nullary_bufs_sub .., binary_bufs_sub .., nullary_bufs_sub .., unary_bufs_sub .., ternary_bufs_sub .., binary_bufs_sub .., binary_bufs_sub .., binary_bufs_sub .., nullary_bufs_sub .., binary_bufs_sub .., binary_bufs_sub .., binary_bufs_sub .., nullary_bufs_sub .., binary_bufs_sub .., binary_bufs_sub ..⟩

/-! ## The result as one term of the arguments -/

/-- The distance of the wide rows: `√(0 + Σ_k (x0 − x1)² + ε)`, one per row. -/
def dX (x0 x1 : (⟨S65536x512, .f32⟩ : BufTy).Contents (Elt F)) : (⟨S65536, .f32⟩ : BufTy).Contents (Elt F) :=
  Host.sqrt (addf (Host.reduceAdd (mulf (subf x0 x1) (subf x0 x1)) (constant S_ .f32 0x00000000#32) reducesTo_S65536x512_S65536_d1 h_S_)
    (broadcastInDim S65536 ![] bcast_S_S65536 (constant S_ .f32 0x358637BD#32)))

/-- The distance of the narrow rows. -/
def dY (x2 x3 : (⟨S65536x2, .f32⟩ : BufTy).Contents (Elt F)) : (⟨S65536, .f32⟩ : BufTy).Contents (Elt F) :=
  Host.sqrt (addf (Host.reduceAdd (mulf (subf x2 x3) (subf x2 x3)) (constant S_ .f32 0x00000000#32) reducesTo_S65536x2_S65536_d1 h_S_)
    (broadcastInDim S65536 ![] bcast_S_S65536 (constant S_ .f32 0x358637BD#32)))

/-- Per row, the conjunction over the lanes of the bits `x0 = x1`, from 1. -/
def allEq (x0 x1 : (⟨S65536x512, .f32⟩ : BufTy).Contents (Elt F)) : (⟨S65536, .i1⟩ : BufTy).Contents (Elt F) :=
  Host.reduce IntOp.andi (cmpf .oeq x0 x1) (constantI S_ 1 1#1) reducesTo_S65536x512_S65536_d1 h_S_

/-- The weight as the inlined `jnp.where` leaves it: 1 where the conjunction is 1, the wide distance elsewhere — each
    value moved between its tensor type and its buffer's type on the way in and out of the call. -/
def wgt (x0 x1 : (⟨S65536x512, .f32⟩ : BufTy).Contents (Elt F)) : (⟨S65536, .f32⟩ : BufTy).Contents (Elt F) :=
  (TRef.of (sig := sig) (T := ⟨S65536, .f32⟩) main_v14).toBuf
    (select ((TRef.of (sig := sig) (T := ⟨S65536, .i1⟩) main_v13).ofBuf (allEq x0 x1))
      ((TRef.of (sig := sig) (T := ⟨S65536, .f32⟩) main_call0_v0).ofBuf
        ((TRef.of (sig := sig) (T := ⟨S65536, .f32⟩) main_call0_v0).toBuf
          (broadcastInDim S65536 ![] bcast_S_S65536
            ((TRef.of (sig := sig) (T := ⟨S_, .f32⟩) main_cst_3).ofBuf (constant S_ .f32 0x3F800000#32)))))
      ((TRef.of (sig := sig) (T := ⟨S65536, .f32⟩) main_v5).ofBuf (dX x0 x1)))

/-! Each such move is the identity at its literal buffer (the buffer's type is the value's, by computation). -/

theorem toBuf_v14 (v : (⟨S65536, .f32⟩ : BufTy).Contents (Elt F)) :
    (TRef.of (sig := sig) (T := ⟨S65536, .f32⟩) main_v14).toBuf (Val := Elt F) v = v := rfl
theorem ofBuf_v13 (v : (⟨S65536, .i1⟩ : BufTy).Contents (Elt F)) :
    (TRef.of (sig := sig) (T := ⟨S65536, .i1⟩) main_v13).ofBuf (Val := Elt F) v = v := rfl
theorem ofBuf_v5 (v : (⟨S65536, .f32⟩ : BufTy).Contents (Elt F)) :
    (TRef.of (sig := sig) (T := ⟨S65536, .f32⟩) main_v5).ofBuf (Val := Elt F) v = v := rfl
theorem toBuf_call0_v0 (v : (⟨S65536, .f32⟩ : BufTy).Contents (Elt F)) :
    (TRef.of (sig := sig) (T := ⟨S65536, .f32⟩) main_call0_v0).toBuf (Val := Elt F) v = v := rfl
theorem ofBuf_call0_v0 (v : (⟨S65536, .f32⟩ : BufTy).Contents (Elt F)) :
    (TRef.of (sig := sig) (T := ⟨S65536, .f32⟩) main_call0_v0).ofBuf (Val := Elt F) v = v := rfl
theorem ofBuf_cst_3 (v : (⟨S_, .f32⟩ : BufTy).Contents (Elt F)) :
    (TRef.of (sig := sig) (T := ⟨S_, .f32⟩) main_cst_3).ofBuf (Val := Elt F) v = v := rfl

/-- So the weight is the plain select. -/
theorem wgt_eq (x0 x1 : (⟨S65536x512, .f32⟩ : BufTy).Contents (Elt F)) :
    wgt x0 x1 = select (allEq x0 x1) (broadcastInDim S65536 ![] bcast_S_S65536 (constant S_ .f32 0x3F800000#32)) (dX x0 x1) := by
  unfold wgt
  rw [toBuf_v14, ofBuf_v13, ofBuf_v5, ofBuf_call0_v0, toBuf_call0_v0, ofBuf_cst_3]

/-- The rows' losses. -/
def rows (x0 x1 : (⟨S65536x512, .f32⟩ : BufTy).Contents (Elt F)) (x2 x3 : (⟨S65536x2, .f32⟩ : BufTy).Contents (Elt F)) :
    (⟨S65536, .f32⟩ : BufTy).Contents (Elt F) :=
  Host.divf (mulf (subf (dX x0 x1) (dY x2 x3)) (subf (dX x0 x1) (dY x2 x3))) (wgt x0 x1)

/-- The second term: the sum over every entry of `(x2 − x4)²`. -/
def gt (x2 x4 : (⟨S65536x2, .f32⟩ : BufTy).Contents (Elt F)) : (⟨S_, .f32⟩ : BufTy).Contents (Elt F) :=
  Host.reduceAdd (mulf (subf x2 x4) (subf x2 x4)) (constant S_ .f32 0x00000000#32) reducesTo_S65536x2_S_d0_1 h_S_

/-- The result. -/
def total (x0 x1 : (⟨S65536x512, .f32⟩ : BufTy).Contents (Elt F)) (x2 x3 x4 : (⟨S65536x2, .f32⟩ : BufTy).Contents (Elt F)) :
    (⟨S_, .f32⟩ : BufTy).Contents (Elt F) :=
  addf (Host.reduceAdd (rows x0 x1 x2 x3) (constant S_ .f32 0x00000000#32) reducesTo_S65536_S_d0 h_S_) (gt x2 x4)

set_option maxHeartbeats 2000000 in
/-- What the result buffer holds after the 32 operations: `total` of the arguments' launch contents (each operation's
    result read at its own buffer, any other buffer as it was; what is left is `total` unfolded). -/
theorem result_eq (m : (ℓ : Loc nD τ sig) → Buf (Elt F) ℓ) (c : Dev nD) :
    after (ops (F := F)) (launchContents m c) (Proc.devRef .tc main_v22)
      = total (launchContents m c (Proc.devRef .tc main_arg0)) (launchContents m c (Proc.devRef .tc main_arg1))
          (launchContents m c (Proc.devRef .tc main_arg2)) (launchContents m c (Proc.devRef .tc main_arg3))
          (launchContents m c (Proc.devRef .tc main_arg4)) := by
  after_results_simp
  rfl

set_option maxHeartbeats 2000000 in
/-- On every device, from any memory with zero counters: every weakly fair execution of @main terminates with the
    result at `total` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22)
        = total (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v22).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.RefRun

end
-- ==== Proof.RefValue.lean ====
/-
  The reference's result is the common expression `LossSpec.result` of its arguments.

  Each host operation is named as a stage and read at an index: the wide and narrow squared differences; their sums
  along the lanes (the host's initial 0 plus the sum over the lane coordinate); the broadcast ε; the two distances; the
  conjunction over the lanes of the comparison bits (a fold of `and` from 1), which selects the weight (Proof/RowLoss.lean
  `select_andFlag`); the rows' losses, which are `LossSpec.rowLoss`; and the two total sums.
-/
import proofs.«140014_j15839839388182_2_alg».proof.Proof.RefRun
import proofs.«140014_j15839839388182_2_alg».proof.Proof.LossSpec
import proofs.«140014_j15839839388182_2_alg».proof.Proof.LibHostPointwise
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.RefRun Idealize.ShloMosaic Idealize.ShloMosaic.ValueIdx
open Cert.RowLoss Cert.LossSpec
open scoped BigOperators

/-- A sum over the indices of a rank-1 array is the sum over its one coordinate. -/
theorem sum_idx1 {M : Type*} [AddCommMonoid M] {n : ℕ} (f : (⟨1, ![n]⟩ : Shape).Idx → M) :
    ∑ i, f i = ∑ a : Fin n, f (ix1 a) :=
  (Fintype.sum_equiv (⟨fun i => i 0, fun a => ix1 a, fun i => (eq_ix1 i).symm, fun _ => rfl⟩ : (⟨1, ![n]⟩ : Shape).Idx ≃ Fin n)
    f (fun a => f (ix1 a)) (fun i => congrArg f (eq_ix1 i))).trans rfl

/-! ## The stages, at any float instance -/

section Stages
variable {F : FTy → Type} [FloatOps F]

def sqW (x0 x1 : (⟨S65536x512, .f32⟩ : BufTy).Contents (Elt F)) : (⟨S65536x512, .f32⟩ : BufTy).Contents (Elt F) := mulf (subf x0 x1) (subf x0 x1)
def ssW (x0 x1 : (⟨S65536x512, .f32⟩ : BufTy).Contents (Elt F)) : (⟨S65536, .f32⟩ : BufTy).Contents (Elt F) :=
  Host.reduceAdd (sqW x0 x1) (constant S_ .f32 0x00000000#32) reducesTo_S65536x512_S65536_d1 h_S_
def epsV : (⟨S65536, .f32⟩ : BufTy).Contents (Elt F) := broadcastInDim S65536 ![] bcast_S_S65536 (constant S_ .f32 0x358637BD#32)
def oneV : (⟨S65536, .f32⟩ : BufTy).Contents (Elt F) := broadcastInDim S65536 ![] bcast_S_S65536 (constant S_ .f32 0x3F800000#32)
def sumW (x0 x1 : (⟨S65536x512, .f32⟩ : BufTy).Contents (Elt F)) : (⟨S65536, .f32⟩ : BufTy).Contents (Elt F) := addf (ssW x0 x1) epsV
def sqN (x2 x3 : (⟨S65536x2, .f32⟩ : BufTy).Contents (Elt F)) : (⟨S65536x2, .f32⟩ : BufTy).Contents (Elt F) := mulf (subf x2 x3) (subf x2 x3)
def ssN (x2 x3 : (⟨S65536x2, .f32⟩ : BufTy).Contents (Elt F)) : (⟨S65536, .f32⟩ : BufTy).Contents (Elt F) :=
  Host.reduceAdd (sqN x2 x3) (constant S_ .f32 0x00000000#32) reducesTo_S65536x2_S65536_d1 h_S_
def sumN (x2 x3 : (⟨S65536x2, .f32⟩ : BufTy).Contents (Elt F)) : (⟨S65536, .f32⟩ : BufTy).Contents (Elt F) := addf (ssN x2 x3) epsV
def eqW (x0 x1 : (⟨S65536x512, .f32⟩ : BufTy).Contents (Elt F)) : (⟨S65536x512, .i1⟩ : BufTy).Contents (Elt F) := cmpf .oeq x0 x1
def numV (x0 x1 : (⟨S65536x512, .f32⟩ : BufTy).Contents (Elt F)) (x2 x3 : (⟨S65536x2, .f32⟩ : BufTy).Contents (Elt F)) : (⟨S65536, .f32⟩ : BufTy).Contents (Elt F) :=
  mulf (subf (dX x0 x1) (dY x2 x3)) (subf (dX x0 x1) (dY x2 x3))

theorem dX_eq (x0 x1 : (⟨S65536x512, .f32⟩ : BufTy).Contents (Elt F)) : dX x0 x1 = Host.sqrt (sumW x0 x1) := rfl
theorem dY_eq (x2 x3 : (⟨S65536x2, .f32⟩ : BufTy).Contents (Elt F)) : dY x2 x3 = Host.sqrt (sumN x2 x3) := rfl
theorem allEq_eq (x0 x1 : (⟨S65536x512, .f32⟩ : BufTy).Contents (Elt F)) :
    allEq x0 x1 = Host.reduce IntOp.andi (eqW x0 x1) (constantI S_ 1 1#1) reducesTo_S65536x512_S65536_d1 h_S_ := rfl
theorem wgt_eq' (x0 x1 : (⟨S65536x512, .f32⟩ : BufTy).Contents (Elt F)) : wgt x0 x1 = select (allEq x0 x1) oneV (dX x0 x1) := wgt_eq x0 x1
theorem rows_eq (x0 x1 : (⟨S65536x512, .f32⟩ : BufTy).Contents (Elt F)) (x2 x3 : (⟨S65536x2, .f32⟩ : BufTy).Contents (Elt F)) : rows x0 x1 x2 x3 = Host.divf (numV x0 x1 x2 x3) (wgt x0 x1) := rfl
theorem gt_eq (x2 x4 : (⟨S65536x2, .f32⟩ : BufTy).Contents (Elt F)) :
    gt x2 x4 = Host.reduceAdd (sqN x2 x4) (constant S_ .f32 0x00000000#32) reducesTo_S65536x2_S_d0_1 h_S_ := rfl
theorem total_eq (x0 x1 : (⟨S65536x512, .f32⟩ : BufTy).Contents (Elt F)) (x2 x3 x4 : (⟨S65536x2, .f32⟩ : BufTy).Contents (Elt F)) :
    total x0 x1 x2 x3 x4
      = addf (Host.reduceAdd (rows x0 x1 x2 x3) (constant S_ .f32 0x00000000#32) reducesTo_S65536_S_d0 h_S_) (gt x2 x4) := rfl

end Stages

/-! ## The stages at an index, on the extended reals -/

variable (x0 x1 : (⟨S65536x512, .f32⟩ : BufTy).Contents (Elt Ideal)) (x2 x3 x4 : (⟨S65536x2, .f32⟩ : BufTy).Contents (Elt Ideal))

theorem sqW_apply (i : S65536x512.Idx) : sqW (F := Ideal) x0 x1 i = (x0 i - x1 i) * (x0 i - x1 i) := rfl
theorem sqN_apply (i : S65536x2.Idx) : sqN (F := Ideal) x2 x3 i = (x2 i - x3 i) * (x2 i - x3 i) := rfl

theorem ssW_apply (r : Fin 65536) : ssW (F := Ideal) x0 x1 (ix1 r) = zero + RowLoss.sq (wideRow x0 r) (wideRow x1 r) := by
  unfold ssW RowLoss.sq
  generalize hy : sqW (F := Ideal) x0 x1 = y0
  simp only [Host.reduceAdd, Ideal.hostReduceAdd_def]
  rw [Ideal.hostReduceAdd_single reducesTo_S65536x512_S65536_d1 (by decide)]
  subst hy
  refine congrArg (_ + ·) (Finset.sum_congr rfl fun k _ => ?_)
  exact (congrArg (sqW (F := Ideal) x0 x1) (funext fun a => Fin.ext (by match a with | ⟨0, _⟩ => rfl | ⟨1, _⟩ => rfl))).trans (sqW_apply x0 x1 (ix2 r k))

theorem ssN_apply (r : Fin 65536) : ssN (F := Ideal) x2 x3 (ix1 r) = zero + RowLoss.sq (narrowRow x2 r) (narrowRow x3 r) := by
  unfold ssN RowLoss.sq
  generalize hy : sqN (F := Ideal) x2 x3 = y0
  simp only [Host.reduceAdd, Ideal.hostReduceAdd_def]
  rw [Ideal.hostReduceAdd_single reducesTo_S65536x2_S65536_d1 (by decide)]
  subst hy
  refine congrArg (_ + ·) (Finset.sum_congr rfl fun k _ => ?_)
  exact (congrArg (sqN (F := Ideal) x2 x3) (funext fun a => Fin.ext (by match a with | ⟨0, _⟩ => rfl | ⟨1, _⟩ => rfl))).trans (sqN_apply x2 x3 (ix2 r k))

theorem epsV_apply (i : S65536.Idx) : epsV (F := Ideal) i = eps := by
  unfold epsV
  exact (broadcastInDim_apply _ bcast_S_S65536 _ i (fun a => a.elim0) (fun a => a.elim0)).trans rfl

theorem oneV_apply (i : S65536.Idx) : oneV (F := Ideal) i = one := by
  unfold oneV
  exact (broadcastInDim_apply _ bcast_S_S65536 _ i (fun a => a.elim0) (fun a => a.elim0)).trans rfl

theorem dX_apply (r : Fin 65536) : dX (F := Ideal) x0 x1 (ix1 r) = dist (RowLoss.sq (wideRow x0 r) (wideRow x1 r)) := by
  unfold RowLoss.dist
  rw [dX_eq, Cert.HostPointwise.hostSqrt_apply]
  unfold sumW
  rw [addf_apply, ssW_apply, epsV_apply, zero_eq, zero_add]

theorem dY_apply (r : Fin 65536) : dY (F := Ideal) x2 x3 (ix1 r) = dyRow x2 x3 r := by
  unfold dyRow RowLoss.dist
  rw [dY_eq, Cert.HostPointwise.hostSqrt_apply]
  unfold sumN
  rw [addf_apply, ssN_apply, epsV_apply, zero_eq, zero_add]

theorem allEq_apply (r : Fin 65536) :
    allEq (F := Ideal) x0 x1 (ix1 r)
      = (Finset.univ : Finset (Fin 512)).fold IntOp.andi 1#1 (fun k => Ideal.cmp .oeq (wideRow x0 r k) (wideRow x1 r k)) := by
  rw [allEq_eq]
  refine (Host.reduce_eq_fold_single IntOp.andi (eqW (F := Ideal) x0 x1) (constantI S_ 1 1#1) reducesTo_S65536x512_S65536_d1
    (by decide) h_S_ (ix1 r)).trans ?_
  exact congrArg (fun f : Fin 512 → BitVec 1 => (Finset.univ : Finset (Fin 512)).fold IntOp.andi 1#1 f)
    (funext fun k => (congrArg (eqW (F := Ideal) x0 x1) (funext fun a => Fin.ext (by match a with | ⟨0, _⟩ => rfl | ⟨1, _⟩ => rfl))).trans rfl)

theorem wgt_apply (r : Fin 65536) :
    wgt (F := Ideal) x0 x1 (ix1 r) = weight (wideRow x0 r) (wideRow x1 r) (dist (RowLoss.sq (wideRow x0 r) (wideRow x1 r))) := by
  rw [wgt_eq', select_apply, allEq_apply, oneV_apply, dX_apply, select_andFlag]

theorem rows_apply (r : Fin 65536) : rows (F := Ideal) x0 x1 x2 x3 (ix1 r) = rowLoss x0 x1 x2 x3 r := by
  unfold rowLoss loss
  rw [rows_eq, Cert.HostPointwise.hostDivf_apply]
  unfold numV
  rw [mulf_apply, subf_apply, dX_apply, dY_apply, wgt_apply]

theorem rowsTotal_apply (i : S_.Idx) :
    Host.reduceAdd (F := Ideal) (rows x0 x1 x2 x3) (constant S_ .f32 0x00000000#32) reducesTo_S65536_S_d0 h_S_ i
      = zero + ∑ r : Fin 65536, rowLoss x0 x1 x2 x3 r := by
  generalize hy : rows (F := Ideal) x0 x1 x2 x3 = y0
  simp only [Host.reduceAdd, Ideal.hostReduceAdd_def]
  rw [Ideal.hostReduceAdd_total reducesTo_S65536_S_d0 (fun b => b.elim0)]
  subst hy
  refine congrArg (_ + ·) ?_
  rw [sum_idx1]
  exact Finset.sum_congr rfl fun r _ => rows_apply x0 x1 x2 x3 r

theorem gt_apply (i : S_.Idx) : gt (F := Ideal) x2 x4 i = zero + gtSum x2 x4 := by
  rw [gt_eq]
  generalize hy : sqN (F := Ideal) x2 x4 = y0
  simp only [Host.reduceAdd, Ideal.hostReduceAdd_def]
  rw [Ideal.hostReduceAdd_total reducesTo_S65536x2_S_d0_1 (fun b => b.elim0)]
  subst hy
  rfl

/-- The reference's result is the common expression. -/
theorem total_apply (i : S_.Idx) : total (F := Ideal) x0 x1 x2 x3 x4 i = result x0 x1 x2 x3 x4 := by
  unfold result
  rw [total_eq, addf_apply, rowsTotal_apply, gt_apply]

end Cert.ReferenceIdeal.RefValue

end
-- ==== Proof.lean ====
/-
  A Siamese pair loss, computed two ways, is one number.

  For feature arrays `x0 x1 : [65536, 512]` and small arrays `x2 x3 x4 : [65536, 2]`, each row `r` has two distances
  `dX r = √(Σ_k (x0 − x1)² + ε)` and `dY r = √(Σ_k (x2 − x3)² + ε)`, a weight `w r` — 1 when the two feature rows agree
  in every lane, `dX r` otherwise — and a loss `(dX r − dY r)² / w r`.  The result is the sum of the rows' losses plus the
  sum over every entry of `(x2 − x4)²`.

  The reference computes exactly that on the host, deciding "the rows agree" by a conjunction over the lanes.  The
  kernel streams the feature arrays in blocks of 2048 rows over a 2 × 16 grid: at each point it adds the block's
  total to a one-entry accumulator that restarts at the first point of each of the two groups of sixteen, decides
  "the rows agree" by a minimum over the lanes of a 0/1 indicator, and at each group's last point writes the
  accumulator into the first cell of an [8, 128] block of zeros; the host then sums the [16, 128] array of the two
  blocks and adds the second term.

  On the extended reals the two are equal term by term:
    * the two tests of "the rows agree" say the same (Proof/RowLoss.lean), so a row's loss is one function of the row
      on both sides (Proof/Payloads.lean for the kernel's block, Proof/RefValue.lean for the reference);
    * after point `n` the accumulator holds the running total of the blocks seen since its group began (Proof/Points.lean,
      by induction on the point), so the output array holds the two groups' totals in two cells and zeros elsewhere
      (Proof/OutArray.lean), and its sum is those two totals (Proof/TwoCells.lean);
    * the blocks are consecutive runs of 2048 rows (Proof/Blocks.lean), and thirty-two block totals taken in two groups of
      sixteen are the sum over all 65536 rows (Proof/GridSum.lean) — a regrouping of one sum in a commutative monoid, so
      nothing needs to be finite;
    * the second term is the same host computation in both programs (Proof/HostPrefix.lean).
  Both runs therefore end at `LossSpec.result` of the arguments (Proof/Result.lean, Proof/RefRun.lean), which is the
  value the claim names.  The kernel's idealization rewrote no operation, so the preservation claim is trivial, and
  each program runs to completion with its arguments unchanged.
-/
import proofs.«140014_j15839839388182_2_alg».proof.Defs
import proofs.«140014_j15839839388182_2_alg».proof.Proof.Gen.Kernel
import proofs.«140014_j15839839388182_2_alg».proof.Proof.Gen.Kernel.Skeleton
import proofs.«140014_j15839839388182_2_alg».proof.Proof.Gen.Kernel.Launch
import proofs.«140014_j15839839388182_2_alg».proof.Proof.Gen.Kernel.Points
import proofs.«140014_j15839839388182_2_alg».proof.Proof.Gen.Kernel.Frame
import proofs.«140014_j15839839388182_2_alg».proof.Proof.Gen.KernelIdeal
import proofs.«140014_j15839839388182_2_alg».proof.Proof.Gen.KernelIdeal.Skeleton
import proofs.«140014_j15839839388182_2_alg».proof.Proof.Gen.KernelIdeal.Launch
import proofs.«140014_j15839839388182_2_alg».proof.Proof.Gen.KernelIdeal.Points
import proofs.«140014_j15839839388182_2_alg».proof.Proof.Gen.KernelIdeal.Frame
import proofs.«140014_j15839839388182_2_alg».proof.Proof.Gen.ReferenceIdeal
import proofs.«140014_j15839839388182_2_alg».proof.Proof.Gen.Pre_finite_inputs
import proofs.«140014_j15839839388182_2_alg».proof.Proof.Result
import proofs.«140014_j15839839388182_2_alg».proof.Proof.RefValue
import Idealize.ShloMosaic.Adequacy
import Idealize.ShloMosaic.Init

noncomputable section

namespace Cert.Proof

open Idealize.ShloMosaic Idealize.SL.Sem

/-- The kernel as printed runs to completion with its arguments unchanged, -/
theorem frame_kernel : Cert.frame_Kernel := fun m ρ _ => Cert.Kernel.Gen.frame m ρ

/-- so does its idealization, -/
theorem frame_kernelIdeal : Cert.frame_KernelIdeal := fun m ρ _ => Cert.KernelIdeal.Gen.frame m ρ

/-- and so does the reference: its run, with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- From memories that agree on the arguments both programs end at the common expression of the arguments. -/
theorem algebraic : Cert.algebraic_KernelIdeal_ReferenceIdeal := by
  intro m ρ m' ρ' _ hagree
  refine ⟨fun c _ => Cert.LossSpec.result (Cert.KernelIdeal.Blocks.X0 m c) (Cert.KernelIdeal.Blocks.X1 m c)
      (Cert.KernelIdeal.Blocks.Y2 m c) (Cert.KernelIdeal.Blocks.Y3 m c) (Cert.KernelIdeal.Blocks.Y4 m c),
    Cert.KernelIdeal.Result.run m ρ, ?_⟩
  refine (θ_run Cert.ReferenceIdeal.defs _ _).mono (fun _ h c => ⟨(h c).1.trans ?_, (h c).2⟩)
    (Cert.ReferenceIdeal.RefRun.run (F := Ideal) m' ρ')
  funext i
  rw [Cert.ReferenceIdeal.RefValue.total_apply, (hagree c).1, (hagree c).2.1, (hagree c).2.2.1, (hagree c).2.2.2.1,
    (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
